-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x88 : Shape := ⟨2, ![500000, 88]⟩
abbrev S500000x168 : Shape := ⟨2, ![500000, 168]⟩
abbrev S128x88 : Shape := ⟨2, ![128, 88]⟩
abbrev S128 : Shape := ⟨1, ![128]⟩
abbrev S128x168 : Shape := ⟨2, ![128, 168]⟩
abbrev S128x256 : Shape := ⟨2, ![128, 256]⟩
abbrev S32x128 : Shape := ⟨2, ![32, 128]⟩
abbrev S8x32 : Shape := ⟨2, ![8, 32]⟩
abbrev S8x128 : Shape := ⟨2, ![8, 128]⟩
abbrev S8 : Shape := ⟨1, ![8]⟩
abbrev S128x16 : Shape := ⟨2, ![128, 16]⟩
abbrev S1x128 : Shape := ⟨2, ![1, 128]⟩
abbrev S1 : Shape := ⟨1, ![1]⟩
abbrev S_ : Shape := ⟨0, ![]⟩

class Facts : Prop where
  bcast_S_S500000x88 : S_.BroadcastsInDim S500000x88 (![] : Fin 0 → Fin S500000x88.rank)
  reducesTo_S500000x88_S_d0_1 : S500000x88.ReducesTo [0, 1] S_
  h_S_ : 0 < S_.numel
  bcast_S_S500000x168 : S_.BroadcastsInDim S500000x168 (![] : Fin 0 → Fin S500000x168.rank)
  reducesTo_S500000x168_S_d0_1 : S500000x168.ReducesTo [0, 1] S_
  bcast_S_S128x88 : S_.BroadcastsInDim S128x88 (![] : Fin 0 → Fin S128x88.rank)
  reducesTo_S128x88_S_d0_1 : S128x88.ReducesTo [0, 1] S_
  bcast_S_S128 : S_.BroadcastsInDim S128 (![] : Fin 0 → Fin S128.rank)
  reducesTo_S128_S_d0 : S128.ReducesTo [0] S_
  bcast_S_S128x168 : S_.BroadcastsInDim S128x168 (![] : Fin 0 → Fin S128x168.rank)
  reducesTo_S128x168_S_d0_1 : S128x168.ReducesTo [0, 1] S_
  bcast_S_S128x256 : S_.BroadcastsInDim S128x256 (![] : Fin 0 → Fin S128x256.rank)
  reducesTo_S128x256_S_d0_1 : S128x256.ReducesTo [0, 1] S_
  bcast_S_S32x128 : S_.BroadcastsInDim S32x128 (![] : Fin 0 → Fin S32x128.rank)
  reducesTo_S32x128_S_d0_1 : S32x128.ReducesTo [0, 1] S_
  bcast_S_S8x32 : S_.BroadcastsInDim S8x32 (![] : Fin 0 → Fin S8x32.rank)
  reducesTo_S8x32_S_d0_1 : S8x32.ReducesTo [0, 1] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S128x16 : S_.BroadcastsInDim S128x16 (![] : Fin 0 → Fin S128x16.rank)
  reducesTo_S128x16_S_d0_1 : S128x16.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1 .f32) (main_v98 : IVec S_ 1) (main_v101 : IVec S1x128 1) (main_c_39 : IVec S_ 1) : IVec S_ 1 :=
  let main_v102 : IVec S_ 1 := (fun x v => Host.reduce IntOp.andi x v reducesTo_S1x128_S_d0_1 h_S_) main_v101 main_c_39
  let main_v103 : IVec S_ 1 := andi main_v98 main_v102
  let main_v104 : FVec F S1 .f32 := Host.absf main_arg21
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg18 : FVec F S128x16 .f32) (main_arg19 : FVec F S128 .f32) (main_arg20 : FVec F S1x128 .f32) (main_arg21 : FVec F S1 .f32) (main_v83 : IVec S_ 1) (main_v84 : FVec F S8 .f32) (main_cst_32 : FVec F S_ .f32) : IVec S_ 1 :=
  let main_v85 : FVec F S8 .f32 := broadcastInDim S8 ![] bcast_S_S8 main_cst_32
  let main_v86 : IVec S8 1 := cmpf .olt main_v84 main_v85
  let main_c_33 : IVec S_ 1 := constantI S_ 1 1#1
  let main_v87 : IVec S_ 1 := (fun x v => Host.reduce IntOp.andi x v reducesTo_S8_S_d0 h_S_) main_v86 main_c_33
  let main_v88 : IVec S_ 1 := andi main_v83 main_v87
  let main_v89 : FVec F S128x16 .f32 := Host.absf main_arg18
  let main_cst_34 : FVec F S_ .f32 := constant S_ .f32 0x7F800000#32
  let main_v90 : FVec F S128x16 .f32 := broadcastInDim S128x16 ![] bcast_S_S128x16 main_cst_34
  let main_v91 : IVec S128x16 1 := cmpf .olt main_v89 main_v90
  let main_c_35 : IVec S_ 1 := constantI S_ 1 1#1
  let main_v92 : IVec S_ 1 := (fun x v => Host.reduce IntOp.andi x v reducesTo_S128x16_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S1x128 .f32 := Host.absf main_arg20
  let main_cst_38 : FVec F S_ .f32 := constant S_ .f32 0x7F800000#32
  let main_v100 : FVec F S1x128 .f32 := broadcastInDim S1x128 ![] bcast_S_S1x128 main_cst_38
  let main_v101 : IVec S1x128 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S8x128 .f32) (main_arg15 : FVec F S8 .f32) (main_arg16 : FVec F S8x128 .f32) (main_arg17 : FVec F S8 .f32) (main_arg18 : FVec F S128x16 .f32) (main_arg19 : FVec F S128 .f32) (main_arg20 : FVec F S1x128 .f32) (main_arg21 : FVec F S1 .f32) (main_v63 : IVec S_ 1) (main_v67 : IVec S_ 1) : IVec S_ 1 :=
  let main_v68 : IVec S_ 1 := andi main_v63 main_v67
  let main_v69 : FVec F S8x128 .f32 := Host.absf main_arg14
  let main_cst_26 : FVec F S_ .f32 := constant S_ .f32 0x7F800000#32
  let main_v70 : FVec F S8x128 .f32 := broadcastInDim S8x128 ![] bcast_S_S8x128 main_cst_26
  let main_v71 : IVec S8x128 1 := cmpf .olt main_v69 main_v70
  let main_c_27 : IVec S_ 1 := constantI S_ 1 1#1
  let main_v72 : IVec S_ 1 := (fun x v => Host.reduce IntOp.andi x v reducesTo_S8x128_S_d0_1 h_S_) main_v71 main_c_27
  let main_v73 : IVec S_ 1 := andi main_v68 main_v72
  let main_v74 : FVec F S8 .f32 := Host.absf main_arg15
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S8x128 .f32 := Host.absf main_arg16
  let main_cst_30 : FVec F S_ .f32 := constant S_ .f32 0x7F800000#32
  let main_v80 : FVec F S8x128 .f32 := broadcastInDim S8x128 ![] bcast_S_S8x128 main_cst_30
  let main_v81 : IVec S8x128 1 := cmpf .olt main_v79 main_v80
  let main_c_31 : IVec S_ 1 := constantI S_ 1 1#1
  let main_v82 : IVec S_ 1 := (fun x v => Host.reduce IntOp.andi x v reducesTo_S8x128_S_d0_1 h_S_) main_v81 main_c_31
  let main_v83 : IVec S_ 1 := andi main_v78 main_v82
  let main_v84 : FVec F S8 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S32x128 .f32) (main_arg12 : FVec F S8x32 .f32) (main_arg13 : FVec F S8x32 .f32) (main_arg14 : FVec F S8x128 .f32) (main_arg15 : FVec F S8 .f32) (main_arg16 : FVec F S8x128 .f32) (main_arg17 : FVec F S8 .f32) (main_arg18 : FVec F S128x16 .f32) (main_arg19 : FVec F S128 .f32) (main_arg20 : FVec F S1x128 .f32) (main_arg21 : FVec F S1 .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S32x128 .f32 := Host.absf main_arg11
  let main_cst_20 : FVec F S_ .f32 := constant S_ .f32 0x7F800000#32
  let main_v55 : FVec F S32x128 .f32 := broadcastInDim S32x128 ![] bcast_S_S32x128 main_cst_20
  let main_v56 : IVec S32x128 1 := cmpf .olt main_v54 main_v55
  let main_c_21 : IVec S_ 1 := constantI S_ 1 1#1
  let main_v57 : IVec S_ 1 := (fun x v => Host.reduce IntOp.andi x v reducesTo_S32x128_S_d0_1 h_S_) main_v56 main_c_21
  let main_v58 : IVec S_ 1 := andi main_v53 main_v57
  let main_v59 : FVec F S8x32 .f32 := Host.absf main_arg12
  let main_cst_22 : FVec F S_ .f32 := constant S_ .f32 0x7F800000#32
  let main_v60 : FVec F S8x32 .f32 := broadcastInDim S8x32 ![] bcast_S_S8x32 main_cst_22
  let main_v61 : IVec S8x32 1 := cmpf .olt main_v59 main_v60
  let main_c_23 : IVec S_ 1 := constantI S_ 1 1#1
  let main_v62 : IVec S_ 1 := (fun x v => Host.reduce IntOp.andi x v reducesTo_S8x32_S_d0_1 h_S_) main_v61 main_c_23
  let main_v63 : IVec S_ 1 := andi main_v58 main_v62
  let main_v64 : FVec F S8x32 .f32 := Host.absf main_arg13
  let main_cst_24 : FVec F S_ .f32 := constant S_ .f32 0x7F800000#32
  let main_v65 : FVec F S8x32 .f32 := broadcastInDim S8x32 ![] bcast_S_S8x32 main_cst_24
  let main_v66 : IVec S8x32 1 := cmpf .olt main_v64 main_v65
  let main_c_25 : IVec S_ 1 := constantI S_ 1 1#1
  let main_v67 : IVec S_ 1 := (fun x v => Host.reduce IntOp.andi x v reducesTo_S8x32_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128x256 .f32) (main_arg8 : FVec F S32x128 .f32) (main_arg9 : FVec F S32x128 .f32) (main_arg10 : FVec F S32x128 .f32) (main_arg11 : FVec F S32x128 .f32) (main_arg12 : FVec F S8x32 .f32) (main_arg13 : FVec F S8x32 .f32) (main_arg14 : FVec F S8x128 .f32) (main_arg15 : FVec F S8 .f32) (main_arg16 : FVec F S8x128 .f32) (main_arg17 : FVec F S8 .f32) (main_arg18 : FVec F S128x16 .f32) (main_arg19 : FVec F S128 .f32) (main_arg20 : FVec F S1x128 .f32) (main_arg21 : FVec F S1 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S32x128 .f32 := Host.absf main_arg8
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S32x128 .f32 := Host.absf main_arg9
  let main_cst_16 : FVec F S_ .f32 := constant S_ .f32 0x7F800000#32
  let main_v45 : FVec F S32x128 .f32 := broadcastInDim S32x128 ![] bcast_S_S32x128 main_cst_16
  let main_v46 : IVec S32x128 1 := cmpf .olt main_v44 main_v45
  let main_c_17 : IVec S_ 1 := constantI S_ 1 1#1
  let main_v47 : IVec S_ 1 := (fun x v => Host.reduce IntOp.andi x v reducesTo_S32x128_S_d0_1 h_S_) main_v46 main_c_17
  let main_v48 : IVec S_ 1 := andi main_v43 main_v47
  let main_v49 : FVec F S32x128 .f32 := Host.absf main_arg10
  let main_cst_18 : FVec F S_ .f32 := constant S_ .f32 0x7F800000#32
  let main_v50 : FVec F S32x128 .f32 := broadcastInDim S32x128 ![] bcast_S_S32x128 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S128x168 .f32) (main_arg5 : FVec F S128 .f32) (main_arg6 : FVec F S128x256 .f32) (main_arg7 : FVec F S128x256 .f32) (main_arg8 : FVec F S32x128 .f32) (main_arg9 : FVec F S32x128 .f32) (main_arg10 : FVec F S32x128 .f32) (main_arg11 : FVec F S32x128 .f32) (main_arg12 : FVec F S8x32 .f32) (main_arg13 : FVec F S8x32 .f32) (main_arg14 : FVec F S8x128 .f32) (main_arg15 : FVec F S8 .f32) (main_arg16 : FVec F S8x128 .f32) (main_arg17 : FVec F S8 .f32) (main_arg18 : FVec F S128x16 .f32) (main_arg19 : FVec F S128 .f32) (main_arg20 : FVec F S1x128 .f32) (main_arg21 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x168 .f32 := Host.absf main_arg4
  let main_cst_6 : FVec F S_ .f32 := constant S_ .f32 0x7F800000#32
  let main_v20 : FVec F S128x168 .f32 := broadcastInDim S128x168 ![] bcast_S_S128x168 main_cst_6
  let main_v21 : IVec S128x168 1 := cmpf .olt main_v19 main_v20
  let main_c_7 : IVec S_ 1 := constantI S_ 1 1#1
  let main_v22 : IVec S_ 1 := (fun x v => Host.reduce IntOp.andi x v reducesTo_S128x168_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S500000x88 .f32) (main_arg1 : FVec F S500000x168 .f32) (main_arg2 : FVec F S128x88 .f32) (main_arg3 : FVec F S128 .f32) (main_arg4 : FVec F S128x168 .f32) (main_arg5 : FVec F S128 .f32) (main_arg6 : FVec F S128x256 .f32) (main_arg7 : FVec F S128x256 .f32) (main_arg8 : FVec F S32x128 .f32) (main_arg9 : FVec F S32x128 .f32) (main_arg10 : FVec F S32x128 .f32) (main_arg11 : FVec F S32x128 .f32) (main_arg12 : FVec F S8x32 .f32) (main_arg13 : FVec F S8x32 .f32) (main_arg14 : FVec F S8x128 .f32) (main_arg15 : FVec F S8 .f32) (main_arg16 : FVec F S8x128 .f32) (main_arg17 : FVec F S8 .f32) (main_arg18 : FVec F S128x16 .f32) (main_arg19 : FVec F S128 .f32) (main_arg20 : FVec F S1x128 .f32) (main_arg21 : FVec F S1 .f32) : IVec S_ 1 :=
  let main_v0 : FVec F S500000x88 .f32 := Host.absf main_arg0
  let main_cst : FVec F S_ .f32 := constant S_ .f32 0x7F800000#32
  let main_v1 : FVec F S500000x88 .f32 := broadcastInDim S500000x88 ![] bcast_S_S500000x88 main_cst
  let main_v2 : IVec S500000x88 1 := cmpf .olt main_v0 main_v1
  let main_c : IVec S_ 1 := constantI S_ 1 1#1
  let main_v3 : IVec S_ 1 := (fun x v => Host.reduce IntOp.andi x v reducesTo_S500000x88_S_d0_1 h_S_) main_v2 main_c
  let main_v4 : FVec F S500000x168 .f32 := Host.absf main_arg1
  let main_cst_0 : FVec F S_ .f32 := constant S_ .f32 0x7F800000#32
  let main_v5 : FVec F S500000x168 .f32 := broadcastInDim S500000x168 ![] bcast_S_S500000x168 main_cst_0
  let main_v6 : IVec S500000x168 1 := cmpf .olt main_v4 main_v5
  let main_c_1 : IVec S_ 1 := constantI S_ 1 1#1
  let main_v7 : IVec S_ 1 := (fun x v => Host.reduce IntOp.andi x v reducesTo_S500000x168_S_d0_1 h_S_) main_v6 main_c_1
  let main_v8 : IVec S_ 1 := andi main_v3 main_v7
  let main_v9 : FVec F S128x88 .f32 := Host.absf main_arg2
  let main_cst_2 : FVec F S_ .f32 := constant S_ .f32 0x7F800000#32
  let main_v10 : FVec F S128x88 .f32 := broadcastInDim S128x88 ![] bcast_S_S128x88 main_cst_2
  let main_v11 : IVec S128x88 1 := cmpf .olt main_v9 main_v10
  let main_c_3 : IVec S_ 1 := constantI S_ 1 1#1
  let main_v12 : IVec S_ 1 := (fun x v => Host.reduce IntOp.andi x v reducesTo_S128x88_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S500000x88 : Shape := ⟨2, ![500000, 88]⟩
abbrev S500000x168 : Shape := ⟨2, ![500000, 168]⟩
abbrev S128x88 : Shape := ⟨2, ![128, 88]⟩
abbrev S128 : Shape := ⟨1, ![128]⟩
abbrev S128x168 : Shape := ⟨2, ![128, 168]⟩
abbrev S128x256 : Shape := ⟨2, ![128, 256]⟩
abbrev S32x128 : Shape := ⟨2, ![32, 128]⟩
abbrev S8x32 : Shape := ⟨2, ![8, 32]⟩
abbrev S8x128 : Shape := ⟨2, ![8, 128]⟩
abbrev S8 : Shape := ⟨1, ![8]⟩
abbrev S128x16 : Shape := ⟨2, ![128, 16]⟩
abbrev S1x128 : Shape := ⟨2, ![1, 128]⟩
abbrev S1 : Shape := ⟨1, ![1]⟩
abbrev S88x128 : Shape := ⟨2, ![88, 128]⟩
abbrev S168x128 : Shape := ⟨2, ![168, 128]⟩
abbrev S_ : Shape := ⟨0, ![]⟩
abbrev S88x256 : Shape := ⟨2, ![88, 256]⟩
abbrev S168x256 : Shape := ⟨2, ![168, 256]⟩
abbrev S256x256 : Shape := ⟨2, ![256, 256]⟩
abbrev S256 : Shape := ⟨1, ![256]⟩
abbrev S1x256 : Shape := ⟨2, ![1, 256]⟩
abbrev S256x128 : Shape := ⟨2, ![256, 128]⟩
abbrev S128x32 : Shape := ⟨2, ![128, 32]⟩
abbrev S256x32 : Shape := ⟨2, ![256, 32]⟩
abbrev S256x64 : Shape := ⟨2, ![256, 64]⟩
abbrev S512x64 : Shape := ⟨2, ![512, 64]⟩
abbrev S32x8 : Shape := ⟨2, ![32, 8]⟩
abbrev S32x16 : Shape := ⟨2, ![32, 16]⟩
abbrev S64x16 : Shape := ⟨2, ![64, 16]⟩
abbrev S128x8 : Shape := ⟨2, ![128, 8]⟩
abbrev S320x16 : Shape := ⟨2, ![320, 16]⟩
abbrev S16 : Shape := ⟨1, ![16]⟩
abbrev S1x16 : Shape := ⟨2, ![1, 16]⟩
abbrev S16x128 : Shape := ⟨2, ![16, 128]⟩
abbrev S1x1 : Shape := ⟨2, ![1, 1]⟩
abbrev S500000x1 : Shape := ⟨2, ![500000, 1]⟩
abbrev S2000x88 : Shape := ⟨2, ![2000, 88]⟩
abbrev S2000x168 : Shape := ⟨2, ![2000, 168]⟩
abbrev S2000x1 : Shape := ⟨2, ![2000, 1]⟩
abbrev S2000 : Shape := ⟨1, ![2000]⟩
abbrev S2000x256 : Shape := ⟨2, ![2000, 256]⟩
abbrev S2000x128 : Shape := ⟨2, ![2000, 128]⟩
abbrev S2000x512 : Shape := ⟨2, ![2000, 512]⟩
abbrev S2000x64 : Shape := ⟨2, ![2000, 64]⟩
abbrev S2000x320 : Shape := ⟨2, ![2000, 320]⟩
abbrev S2000x16 : Shape := ⟨2, ![2000, 16]⟩

abbrev nBuf : Space → Nat
  | .hbm => 78
  | .vmem => 16
  | .smem => 0
  | _ => 0

abbrev bufTy : (tb : Table) → Fin (tcTables nBuf tb) → BufTy
  | .hbm, ⟨0, _⟩ => ⟨S500000x88, .f32⟩
  | .hbm, ⟨1, _⟩ => ⟨S500000x168, .f32⟩
  | .hbm, ⟨2, _⟩ => ⟨S128x88, .f32⟩
  | .hbm, ⟨3, _⟩ => ⟨S128, .f32⟩
  | .hbm, ⟨4, _⟩ => ⟨S128x168, .f32⟩
  | .hbm, ⟨5, _⟩ => ⟨S128, .f32⟩
  | .hbm, ⟨6, _⟩ => ⟨S128x256, .f32⟩
  | .hbm, ⟨7, _⟩ => ⟨S128x256, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S32x128, .f32⟩
  | .hbm, ⟨12, _⟩ => ⟨S8x32, .f32⟩
  | .hbm, ⟨13, _⟩ => ⟨S8x32, .f32⟩
  | .hbm, ⟨14, _⟩ => ⟨S8x128, .f32⟩
  | .hbm, ⟨15, _⟩ => ⟨S8, .f32⟩
  | .hbm, ⟨16, _⟩ => ⟨S8x128, .f32⟩
  | .hbm, ⟨17, _⟩ => ⟨S8, .f32⟩
  | .hbm, ⟨18, _⟩ => ⟨S128x16, .f32⟩
  | .hbm, ⟨19, _⟩ => ⟨S128, .f32⟩
  | .hbm, ⟨20, _⟩ => ⟨S1x128, .f32⟩
  | .hbm, ⟨21, _⟩ => ⟨S1, .f32⟩
  | .hbm, ⟨22, _⟩ => ⟨S88x128, .f32⟩
  | .hbm, ⟨23, _⟩ => ⟨S168x128, .f32⟩
  | .hbm, ⟨24, _⟩ => ⟨S_, .f32⟩
  | .hbm, ⟨25, _⟩ => ⟨S88x128, .f32⟩
  | .hbm, ⟨26, _⟩ => ⟨S88x256, .f32⟩
  | .hbm, ⟨27, _⟩ => ⟨S_, .f32⟩
  | .hbm, ⟨28, _⟩ => ⟨S168x128, .f32⟩
  | .hbm, ⟨29, _⟩ => ⟨S168x256, .f32⟩
  | .hbm, ⟨30, _⟩ => ⟨S256x256, .f32⟩
  | .hbm, ⟨31, _⟩ => ⟨S256x256, .bf16⟩
  | .hbm, ⟨32, _⟩ => ⟨S256, .f32⟩
  | .hbm, ⟨33, _⟩ => ⟨S1x256, .f32⟩
  | .hbm, ⟨34, _⟩ => ⟨S256x128, .f32⟩
  | .hbm, ⟨35, _⟩ => ⟨S_, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S_, .f32⟩
  | .hbm, ⟨40, _⟩ => ⟨S256x128, .f32⟩
  | .hbm, ⟨41, _⟩ => ⟨S256x128, .f32⟩
  | .hbm, ⟨42, _⟩ => ⟨S256x256, .f32⟩
  | .hbm, ⟨43, _⟩ => ⟨S256x256, .bf16⟩
  | .hbm, ⟨44, _⟩ => ⟨S128x32, .f32⟩
  | .hbm, ⟨45, _⟩ => ⟨S128x32, .f32⟩
  | .hbm, ⟨46, _⟩ => ⟨S256x32, .f32⟩
  | .hbm, ⟨47, _⟩ => ⟨S128x32, .f32⟩
  | .hbm, ⟨48, _⟩ => ⟨S128x32, .f32⟩
  | .hbm, ⟨49, _⟩ => ⟨S256x32, .f32⟩
  | .hbm, ⟨50, _⟩ => ⟨S_, .f32⟩
  | .hbm, ⟨51, _⟩ => ⟨S256x32, .f32⟩
  | .hbm, ⟨52, _⟩ => ⟨S256x64, .f32⟩
  | .hbm, ⟨53, _⟩ => ⟨S256x64, .f32⟩
  | .hbm, ⟨54, _⟩ => ⟨S512x64, .f32⟩
  | .hbm, ⟨55, _⟩ => ⟨S512x64, .bf16⟩
  | .hbm, ⟨56, _⟩ => ⟨S_, .f32⟩
  | .hbm, ⟨57, _⟩ => ⟨S32x8, .f32⟩
  | .hbm, ⟨58, _⟩ => ⟨S32x8, .f32⟩
  | .hbm, ⟨59, _⟩ => ⟨S32x16, .f32⟩
  | .hbm, ⟨60, _⟩ => ⟨S32x8, .f32⟩
  | .hbm, ⟨61, _⟩ => ⟨S32x16, .f32⟩
  | .hbm, ⟨62, _⟩ => ⟨S64x16, .f32⟩
  | .hbm, ⟨63, _⟩ => ⟨S_, .f32⟩
  | .hbm, ⟨64, _⟩ => ⟨S128x8, .f32⟩
  | .hbm, ⟨65, _⟩ => ⟨S128x8, .f32⟩
  | .hbm, ⟨66, _⟩ => ⟨S128x16, .f32⟩
  | .hbm, ⟨67, _⟩ => ⟨S128x8, .f32⟩
  | .hbm, ⟨68, _⟩ => ⟨S128x16, .f32⟩
  | .hbm, ⟨69, _⟩ => ⟨S320x16, .f32⟩
  | .hbm, ⟨70, _⟩ => ⟨S320x16, .bf16⟩
  | .hbm, ⟨71, _⟩ => ⟨S16, .f32⟩
  | .hbm, ⟨72, _⟩ => ⟨S1x16, .f32⟩
  | .hbm, ⟨73, _⟩ => ⟨S16x128, .f32⟩
  | .hbm, ⟨74, _⟩ => ⟨S16x128, .bf16⟩
  | .hbm, ⟨75, _⟩ => ⟨S1x128, .f32⟩
  | .hbm, ⟨76, _⟩ => ⟨S1x1, .f32⟩
  | .hbm, ⟨77, _⟩ => ⟨S500000x1, .f32⟩
  | .local _ .vmem, ⟨0, _⟩ => ⟨S2000x88, .f32⟩
  | .local _ .vmem, ⟨1, _⟩ => ⟨S2000x88, .f32⟩
  | .local _ .vmem, ⟨2, _⟩ => ⟨S2000x168, .f32⟩
  | .local _ .vmem, ⟨3, _⟩ => ⟨S2000x168, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S512x64, .bf16⟩
  | .local _ .vmem, ⟨8, _⟩ => ⟨S320x16, .bf16⟩
  | .local _ .vmem, ⟨9, _⟩ => ⟨S1x16, .f32⟩
  | .local _ .vmem, ⟨10, _⟩ => ⟨S16x128, .bf16⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S2000x1, .f32⟩
  | .local _ .vmem, ⟨15, _⟩ => ⟨S2000x1, .f32⟩
  | _, _ => ⟨S500000x88, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x88 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S320x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S128x88_S88x128_1_0 : S128x88.Transposes [1, 0] S88x128
  transposes_S128x168_S168x128_1_0 : S128x168.Transposes [1, 0] S168x128
  bcast_S_S88x128 : S_.BroadcastsInDim S88x128 (![] : Fin 0 → Fin S88x128.rank)
  concatenates_S88x128_S88x128_S88x256_d1 : Shape.Concatenates [S88x128, S88x128] S88x256 1
  bcast_S_S168x128 : S_.BroadcastsInDim S168x128 (![] : Fin 0 → Fin S168x128.rank)
  concatenates_S168x128_S168x128_S168x256_d1 : Shape.Concatenates [S168x128, S168x128] S168x256 1
  concatenates_S88x256_S168x256_S256x256_d0 : Shape.Concatenates [S88x256, S168x256] S256x256 0
  bitsLt_bf16_f32 : FTy.bits .bf16 < FTy.bits .f32
  concatenates_S128_S128_S256_d0 : Shape.Concatenates [S128, S128] S256 0
  shapeCasts_S256_S1x256 : S256.ShapeCasts S1x256
  transposes_S128x256_S256x128_1_0 : S128x256.Transposes [1, 0] S256x128
  bcast_S_S256x128 : S_.BroadcastsInDim S256x128 (![] : Fin 0 → Fin S256x128.rank)
  concatenates_S256x128_S256x128_S256x256_d1 : Shape.Concatenates [S256x128, S256x128] S256x256 1
  transposes_S32x128_S128x32_1_0 : S32x128.Transposes [1, 0] S128x32
  concatenates_S128x32_S128x32_S256x32_d0 : Shape.Concatenates [S128x32, S128x32] S256x32 0
  bcast_S_S256x32 : S_.BroadcastsInDim S256x32 (![] : Fin 0 → Fin S256x32.rank)
  concatenates_S256x32_S256x32_S256x64_d1 : Shape.Concatenates [S256x32, S256x32] S256x64 1
  concatenates_S256x64_S256x64_S512x64_d0 : Shape.Concatenates [S256x64, S256x64] S512x64 0
  bcast_S_S32x8 : S_.BroadcastsInDim S32x8 (![] : Fin 0 → Fin S32x8.rank)
  transposes_S8x32_S32x8_1_0 : S8x32.Transposes [1, 0] S32x8
  concatenates_S32x8_S32x8_S32x16_d1 : Shape.Concatenates [S32x8, S32x8] S32x16 1
  concatenates_S32x16_S32x16_S64x16_d0 : Shape.Concatenates [S32x16, S32x16] S64x16 0
  bcast_S_S128x8 : S_.BroadcastsInDim S128x8 (![] : Fin 0 → Fin S128x8.rank)
  transposes_S8x128_S128x8_1_0 : S8x128.Transposes [1, 0] S128x8
  concatenates_S128x8_S128x8_S128x16_d1 : Shape.Concatenates [S128x8, S128x8] S128x16 1
  concatenates_S64x16_S128x16_S128x16_S320x16_d0 : Shape.Concatenates [S64x16, S128x16, S128x16] S320x16 0
  concatenates_S8_S8_S16_d0 : Shape.Concatenates [S8, S8] S16 0
  shapeCasts_S16_S1x16 : S16.ShapeCasts S1x16
  transposes_S128x16_S16x128_1_0 : S128x16.Transposes [1, 0] S16x128
  shapeCasts_S128_S1x128 : S128.ShapeCasts S1x128
  shapeCasts_S1_S1x1 : S1.ShapeCasts S1x1
  inb_S2000x88_S2000x88_0_0 : ∀ a, (![0, 0] : Fin 2 → Nat) a + S2000x88.size a ≤ S2000x88.size a
  h_S2000x88 : 0 < S2000x88.numel
  inb_S2000x168_S2000x168_0_0 : ∀ a, (![0, 0] : Fin 2 → Nat) a + S2000x168.size a ≤ S2000x168.size a
  h_S2000x168 : 0 < S2000x168.numel
  reduces_S2000x88_S2000 : S2000x88.Reduces [1] S2000
  shapeCasts_S2000_S2000x1 : S2000.ShapeCasts S2000x1
  broadcasts_S2000x1_S2000x88 : S2000x1.Broadcasts S2000x88
  reduces_S2000x168_S2000 : S2000x168.Reduces [1] S2000
  broadcasts_S2000x1_S2000x168 : S2000x1.Broadcasts S2000x168
  concatenates_S2000x88_S2000x168_S2000x256_d1 : Shape.Concatenates [S2000x88, S2000x168] S2000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x128 : S2000x256.Slices ![0, 0] S2000x128
  slices_S2000x256_o0_128_S2000x128 : S2000x256.Slices ![0, 128] S2000x128
  concatenates_S2000x128_S2000x128_S2000x128_S2000x128_S2000x512_d1 : Shape.Concatenates [S2000x128, S2000x128, S2000x128, S2000x128] S2000x512 1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  concatenates_S2000x64_S2000x128_S2000x128_S2000x320_d1 : Shape.Concatenates [S2000x64, S2000x128, S2000x128] S2000x320 1
  inb_S320x16_S320x16_0_0 : ∀ a, (![0, 0] : Fin 2 → Nat) a + S320x16.size a ≤ S320x16.size a
  h_S320x16 : 0 < S320x16.numel
  shapeCasts_S320x16_S320x16 : S320x16.ShapeCasts S320x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x256_S256x256_S2000x256_1_0_0_1_n_n_wf : DotDims.WF S2000x256 S256x256 S2000x256 [1] [0] [0] [1] [] []
  dot_S2000x512_S512x64_S2000x64_1_0_0_1_n_n_wf : DotDims.WF S2000x512 S512x64 S2000x64 [1] [0] [0] [1] [] []
  dot_S2000x320_S320x16_S2000x16_1_0_0_1_n_n_wf : DotDims.WF S2000x320 S320x16 S2000x16 [1] [0] [0] [1] [] []
  dot_S2000x16_S16x128_S2000x128_1_0_0_1_n_n_wf : DotDims.WF S2000x16 S16x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x88.size a ≤ S500000x88.size a
  hwx0_0 : ∀ i : grid0.Coords, EltTy.bits .f32 = 32 ∨ (Rect.block (s := S500000x88) S2000x88.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x168.size a ≤ S500000x168.size a
  hwx0_1 : ∀ i : grid0.Coords, EltTy.bits .f32 = 32 ∨ (Rect.block (s := S500000x168) S2000x168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .bf16 = 32 ∨ (Rect.block (s := S512x64) S512x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S320x16.size a ≤ S320x16.size a
  hwx0_6 : ∀ i : grid0.Coords, EltTy.bits .bf16 = 32 ∨ (Rect.block (s := S320x16) S320x16.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x128.size a ≤ S16x128.size a
  hwx0_8 : ∀ i : grid0.Coords, EltTy.bits .bf16 = 32 ∨ (Rect.block (s := S16x128) S16x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x1.size a ≤ S500000x1.size a
  hwx0_12 : ∀ i : grid0.Coords, EltTy.bits .f32 = 32 ∨ (Rect.block (s := S500000x1) S2000x1.size (cc0_transform_12 i) (hinb0_12 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2000x320_S320x16_S2000x16_1_0_0_1_n_n : DotDims S2000x320 S320x16 S2000x16 where
  lhsContracting := [1]
  rhsContracting := [0]
  lhsNonContracting := [0]
  rhsNonContracting := [1]
  lhsBatch := []
  rhsBatch := []
  wf := dot_S2000x320_S320x16_S2000x16_1_0_0_1_n_n_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf

abbrev win0_0 : Pipeline.Window sig grid0 :=
  Pipeline.Window.ofSpec (Memref.whole main_arg0) S2000x88.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x168.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S320x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S16x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg20) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v48) S2000x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S500000x88 : Shape := ⟨2, ![500000, 88]⟩
abbrev S500000x168 : Shape := ⟨2, ![500000, 168]⟩
abbrev S128x88 : Shape := ⟨2, ![128, 88]⟩
abbrev S128 : Shape := ⟨1, ![128]⟩
abbrev S128x168 : Shape := ⟨2, ![128, 168]⟩
abbrev S128x256 : Shape := ⟨2, ![128, 256]⟩
abbrev S32x128 : Shape := ⟨2, ![32, 128]⟩
abbrev S8x32 : Shape := ⟨2, ![8, 32]⟩
abbrev S8x128 : Shape := ⟨2, ![8, 128]⟩
abbrev S8 : Shape := ⟨1, ![8]⟩
abbrev S128x16 : Shape := ⟨2, ![128, 16]⟩
abbrev S1x128 : Shape := ⟨2, ![1, 128]⟩
abbrev S1 : Shape := ⟨1, ![1]⟩
abbrev S_ : Shape := ⟨0, ![]⟩
abbrev S500000 : Shape := ⟨1, ![500000]⟩
abbrev S500000x1 : Shape := ⟨2, ![500000, 1]⟩
abbrev S88x128 : Shape := ⟨2, ![88, 128]⟩
abbrev S500000x128 : Shape := ⟨2, ![500000, 128]⟩
abbrev S168x128 : Shape := ⟨2, ![168, 128]⟩
abbrev S500000x256 : Shape := ⟨2, ![500000, 256]⟩
abbrev S256x128 : Shape := ⟨2, ![256, 128]⟩
abbrev S128x32 : Shape := ⟨2, ![128, 32]⟩
abbrev S500000x32 : Shape := ⟨2, ![500000, 32]⟩
abbrev S32x8 : Shape := ⟨2, ![32, 8]⟩
abbrev S500000x8 : Shape := ⟨2, ![500000, 8]⟩
abbrev S128x8 : Shape := ⟨2, ![128, 8]⟩
abbrev S1x8 : Shape := ⟨2, ![1, 8]⟩
abbrev S500000x16 : Shape := ⟨2, ![500000, 16]⟩
abbrev S16x128 : Shape := ⟨2, ![16, 128]⟩
abbrev S128x1 : Shape := ⟨2, ![128, 1]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S500000x88, .f32⟩
  | .hbm, ⟨1, _⟩ => ⟨S500000x168, .f32⟩
  | .hbm, ⟨2, _⟩ => ⟨S128x88, .f32⟩
  | .hbm, ⟨3, _⟩ => ⟨S128, .f32⟩
  | .hbm, ⟨4, _⟩ => ⟨S128x168, .f32⟩
  | .hbm, ⟨5, _⟩ => ⟨S128, .f32⟩
  | .hbm, ⟨6, _⟩ => ⟨S128x256, .f32⟩
  | .hbm, ⟨7, _⟩ => ⟨S128x256, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S32x128, .f32⟩
  | .hbm, ⟨12, _⟩ => ⟨S8x32, .f32⟩
  | .hbm, ⟨13, _⟩ => ⟨S8x32, .f32⟩
  | .hbm, ⟨14, _⟩ => ⟨S8x128, .f32⟩
  | .hbm, ⟨15, _⟩ => ⟨S8, .f32⟩
  | .hbm, ⟨16, _⟩ => ⟨S8x128, .f32⟩
  | .hbm, ⟨17, _⟩ => ⟨S8, .f32⟩
  | .hbm, ⟨18, _⟩ => ⟨S128x16, .f32⟩
  | .hbm, ⟨19, _⟩ => ⟨S128, .f32⟩
  | .hbm, ⟨20, _⟩ => ⟨S1x128, .f32⟩
  | .hbm, ⟨21, _⟩ => ⟨S1, .f32⟩
  | .hbm, ⟨22, _⟩ => ⟨S500000x88, .f32⟩
  | .hbm, ⟨23, _⟩ => ⟨S_, .f32⟩
  | .hbm, ⟨24, _⟩ => ⟨S500000, .f32⟩
  | .hbm, ⟨25, _⟩ => ⟨S500000x1, .f32⟩
  | .hbm, ⟨26, _⟩ => ⟨S500000x1, .f32⟩
  | .hbm, ⟨27, _⟩ => ⟨S_, .f32⟩
  | .hbm, ⟨28, _⟩ => ⟨S500000x1, .f32⟩
  | .hbm, ⟨29, _⟩ => ⟨S500000x1, .f32⟩
  | .hbm, ⟨30, _⟩ => ⟨S500000x88, .f32⟩
  | .hbm, ⟨31, _⟩ => ⟨S500000x88, .f32⟩
  | .hbm, ⟨32, _⟩ => ⟨S500000x168, .f32⟩
  | .hbm, ⟨33, _⟩ => ⟨S_, .f32⟩
  | .hbm, ⟨34, _⟩ => ⟨S500000, .f32⟩
  | .hbm, ⟨35, _⟩ => ⟨S500000x1, .f32⟩
  | .hbm, ⟨36, _⟩ => ⟨S500000x1, .f32⟩
  | .hbm, ⟨37, _⟩ => ⟨S_, .f32⟩
  | .hbm, ⟨38, _⟩ => ⟨S500000x1, .f32⟩
  | .hbm, ⟨39, _⟩ => ⟨S500000x1, .f32⟩
  | .hbm, ⟨40, _⟩ => ⟨S500000x168, .f32⟩
  | .hbm, ⟨41, _⟩ => ⟨S500000x168, .f32⟩
  | .hbm, ⟨42, _⟩ => ⟨S88x128, .f32⟩
  | .hbm, ⟨43, _⟩ => ⟨S500000x128, .f32⟩
  | .hbm, ⟨44, _⟩ => ⟨S1x128, .f32⟩
  | .hbm, ⟨45, _⟩ => ⟨S500000x128, .f32⟩
  | .hbm, ⟨46, _⟩ => ⟨S500000x128, .f32⟩
  | .hbm, ⟨47, _⟩ => ⟨S168x128, .f32⟩
  | .hbm, ⟨48, _⟩ => ⟨S500000x128, .f32⟩
  | .hbm, ⟨49, _⟩ => ⟨S1x128, .f32⟩
  | .hbm, ⟨50, _⟩ => ⟨S500000x128, .f32⟩
  | .hbm, ⟨51, _⟩ => ⟨S500000x128, .f32⟩
  | .hbm, ⟨52, _⟩ => ⟨S500000x256, .f32⟩
  | .hbm, ⟨53, _⟩ => ⟨S256x128, .f32⟩
  | .hbm, ⟨54, _⟩ => ⟨S500000x128, .f32⟩
  | .hbm, ⟨55, _⟩ => ⟨S256x128, .f32⟩
  | .hbm, ⟨56, _⟩ => ⟨S500000x128, .f32⟩
  | .hbm, ⟨57, _⟩ => ⟨S500000x128, .f32⟩
  | .hbm, ⟨58, _⟩ => ⟨S_, .f32⟩
  | .hbm, ⟨59, _⟩ => ⟨S500000x128, .f32⟩
  | .hbm, ⟨60, _⟩ => ⟨S500000x128, .f32⟩
  | .hbm, ⟨61, _⟩ => ⟨S500000x128, .f32⟩
  | .hbm, ⟨62, _⟩ => ⟨S500000x128, .f32⟩
  | .hbm, ⟨63, _⟩ => ⟨S_, .f32⟩
  | .hbm, ⟨64, _⟩ => ⟨S500000x128, .f32⟩
  | .hbm, ⟨65, _⟩ => ⟨S500000x128, .f32⟩
  | .hbm, ⟨66, _⟩ => ⟨S500000x128, .f32⟩
  | .hbm, ⟨67, _⟩ => ⟨S128x32, .f32⟩
  | .hbm, ⟨68, _⟩ => ⟨S500000x32, .f32⟩
  | .hbm, ⟨69, _⟩ => ⟨S128x32, .f32⟩
  | .hbm, ⟨70, _⟩ => ⟨S500000x32, .f32⟩
  | .hbm, ⟨71, _⟩ => ⟨S500000x32, .f32⟩
  | .hbm, ⟨72, _⟩ => ⟨S_, .f32⟩
  | .hbm, ⟨73, _⟩ => ⟨S500000x32, .f32⟩
  | .hbm, ⟨74, _⟩ => ⟨S500000x32, .f32⟩
  | .hbm, ⟨75, _⟩ => ⟨S128x32, .f32⟩
  | .hbm, ⟨76, _⟩ => ⟨S500000x32, .f32⟩
  | .hbm, ⟨77, _⟩ => ⟨S128x32, .f32⟩
  | .hbm, ⟨78, _⟩ => ⟨S500000x32, .f32⟩
  | .hbm, ⟨79, _⟩ => ⟨S500000x32, .f32⟩
  | .hbm, ⟨80, _⟩ => ⟨S_, .f32⟩
  | .hbm, ⟨81, _⟩ => ⟨S500000x32, .f32⟩
  | .hbm, ⟨82, _⟩ => ⟨S500000x32, .f32⟩
  | .hbm, ⟨83, _⟩ => ⟨S32x8, .f32⟩
  | .hbm, ⟨84, _⟩ => ⟨S500000x8, .f32⟩
  | .hbm, ⟨85, _⟩ => ⟨S128x8, .f32⟩
  | .hbm, ⟨86, _⟩ => ⟨S500000x8, .f32⟩
  | .hbm, ⟨87, _⟩ => ⟨S500000x8, .f32⟩
  | .hbm, ⟨88, _⟩ => ⟨S1x8, .f32⟩
  | .hbm, ⟨89, _⟩ => ⟨S500000x8, .f32⟩
  | .hbm, ⟨90, _⟩ => ⟨S500000x8, .f32⟩
  | .hbm, ⟨91, _⟩ => ⟨S32x8, .f32⟩
  | .hbm, ⟨92, _⟩ => ⟨S500000x8, .f32⟩
  | .hbm, ⟨93, _⟩ => ⟨S128x8, .f32⟩
  | .hbm, ⟨94, _⟩ => ⟨S500000x8, .f32⟩
  | .hbm, ⟨95, _⟩ => ⟨S500000x8, .f32⟩
  | .hbm, ⟨96, _⟩ => ⟨S1x8, .f32⟩
  | .hbm, ⟨97, _⟩ => ⟨S500000x8, .f32⟩
  | .hbm, ⟨98, _⟩ => ⟨S500000x8, .f32⟩
  | .hbm, ⟨99, _⟩ => ⟨S500000x16, .f32⟩
  | .hbm, ⟨100, _⟩ => ⟨S16x128, .f32⟩
  | .hbm, ⟨101, _⟩ => ⟨S500000x128, .f32⟩
  | .hbm, ⟨102, _⟩ => ⟨S1x128, .f32⟩
  | .hbm, ⟨103, _⟩ => ⟨S500000x128, .f32⟩
  | .hbm, ⟨104, _⟩ => ⟨S500000x128, .f32⟩
  | .hbm, ⟨105, _⟩ => ⟨S128x1, .f32⟩
  | .hbm, ⟨106, _⟩ => ⟨S500000x1, .f32⟩
  | .hbm, ⟨107, _⟩ => ⟨S1x1, .f32⟩
  | .hbm, ⟨108, _⟩ => ⟨S500000x1, .f32⟩
  | .hbm, ⟨109, _⟩ => ⟨S500000x1, .f32⟩
  | _, _ => ⟨S500000x88, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call0_cst : Ref sig .tc := ⟨.hbm, 72, rfl⟩
abbrev main_call0_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call1_cst : Ref sig .tc := ⟨.hbm, 80, rfl⟩
abbrev main_call1_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  reducesTo_S500000x88_S500000_d1 : S500000x88.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x88_0_1 : S500000x1.BroadcastsInDim S500000x88 (![0, 1] : Fin 2 → Fin S500000x88.rank)
  reducesTo_S500000x168_S500000_d1 : S500000x168.ReducesTo [1] S500000
  bcast_S500000x1_S500000x168_0_1 : S500000x1.BroadcastsInDim S500000x168 (![0, 1] : Fin 2 → Fin S500000x168.rank)
  transposes_S128x88_S88x128_1_0 : S128x88.Transposes [1, 0] S88x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  transposes_S128x168_S168x128_1_0 : S128x168.Transposes [1, 0] S168x128
  concatenates_S500000x128_S500000x128_S500000x256_d1 : Shape.Concatenates [S500000x128, S500000x128] S500000x256 1
  transposes_S128x256_S256x128_1_0 : S128x256.Transposes [1, 0] S256x128
  bcast_S_S500000x128 : S_.BroadcastsInDim S500000x128 (![] : Fin 0 → Fin S500000x128.rank)
  transposes_S32x128_S128x32_1_0 : S32x128.Transposes [1, 0] S128x32
  bcast_S_S500000x32 : S_.BroadcastsInDim S500000x32 (![] : Fin 0 → Fin S500000x32.rank)
  transposes_S8x32_S32x8_1_0 : S8x32.Transposes [1, 0] S32x8
  transposes_S8x128_S128x8_1_0 : S8x128.Transposes [1, 0] S128x8
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  concatenates_S500000x8_S500000x8_S500000x16_d1 : Shape.Concatenates [S500000x8, S500000x8] S500000x16 1
  transposes_S128x16_S16x128_1_0 : S128x16.Transposes [1, 0] S16x128
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  dot_S500000x88_S88x128_S500000x128_1_0_0_1_n_n_wf : DotDims.WF S500000x88 S88x128 S500000x128 [1] [0] [0] [1] [] []
  dot_S500000x168_S168x128_S500000x128_1_0_0_1_n_n_wf : DotDims.WF S500000x168 S168x128 S500000x128 [1] [0] [0] [1] [] []
  dot_S500000x256_S256x128_S500000x128_1_0_0_1_n_n_wf : DotDims.WF S500000x256 S256x128 S500000x128 [1] [0] [0] [1] [] []
  dot_S500000x128_S128x32_S500000x32_1_0_0_1_n_n_wf : DotDims.WF S500000x128 S128x32 S500000x32 [1] [0] [0] [1] [] []
  dot_S500000x32_S32x8_S500000x8_1_0_0_1_n_n_wf : DotDims.WF S500000x32 S32x8 S500000x8 [1] [0] [0] [1] [] []
  dot_S500000x128_S128x8_S500000x8_1_0_0_1_n_n_wf : DotDims.WF S500000x128 S128x8 S500000x8 [1] [0] [0] [1] [] []
  dot_S500000x16_S16x128_S500000x128_1_0_0_1_n_n_wf : DotDims.WF S500000x16 S16x128 S500000x128 [1] [0] [0] [1] [] []
  dot_S500000x128_S128x1_S500000x1_1_0_0_1_n_n_wf : DotDims.WF S500000x128 S128x1 S500000x1 [1] [0] [0] [1] [] []

variable [Facts₀]

def dot_S500000x88_S88x128_S500000x128_1_0_0_1_n_n : DotDims S500000x88 S88x128 S500000x128 where
  lhsContracting := [1]
  rhsContracting := [0]
  lhsNonContracting := [0]
  rhsNonContracting := [1]
  lhsBatch := []
  rhsBatch := []
  wf := dot_S500000x88_S88x128_S500000x128_1_0_0_1_n_n_wf
def dot_S500000x168_S168x128_S500000x128_1_0_0_1_n_n : DotDims S500000x168 S168x128 S500000x128 where
  lhsContracting := [1]
  rhsContracting := [0]
  lhsNonContracting := [0]
  rhsNonContracting := [1]
  lhsBatch := []
  rhsBatch := []
  wf := dot_S500000x168_S168x128_S500000x128_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x32_S500000x32_1_0_0_1_n_n : DotDims S500000x128 S128x32 S500000x32 where
  lhsContracting := [1]
  rhsContracting := [0]
  lhsNonContracting := [0]
  rhsNonContracting := [1]
  lhsBatch := []
  rhsBatch := []
  wf := dot_S500000x128_S128x32_S500000x32_1_0_0_1_n_n_wf
def dot_S500000x32_S32x8_S500000x8_1_0_0_1_n_n : DotDims S500000x32 S32x8 S500000x8 where
  lhsContracting := [1]
  rhsContracting := [0]
  lhsNonContracting := [0]
  rhsNonContracting := [1]
  lhsBatch := []
  rhsBatch := []
  wf := dot_S500000x32_S32x8_S500000x8_1_0_0_1_n_n_wf
def dot_S500000x128_S128x8_S500000x8_1_0_0_1_n_n : DotDims S500000x128 S128x8 S500000x8 where
  lhsContracting := [1]
  rhsContracting := [0]
  lhsNonContracting := [0]
  rhsNonContracting := [1]
  lhsBatch := []
  rhsBatch := []
  wf := dot_S500000x128_S128x8_S500000x8_1_0_0_1_n_n_wf
def dot_S500000x16_S16x128_S500000x128_1_0_0_1_n_n : DotDims S500000x16 S16x128 S500000x128 where
  lhsContracting := [1]
  rhsContracting := [0]
  lhsNonContracting := [0]
  rhsNonContracting := [1]
  lhsBatch := []
  rhsBatch := []
  wf := dot_S500000x16_S16x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KernelFrame.lean ====
/-
  The frame of the program's one launch, written against the pipeline library's frame theorem.

  @main is a line of host operations (they lay out the packed weight tables) followed by one launch over a
  grid of 250 points.  At each point the body reads twelve staged blocks whole — two blocks of 2000 feature
  rows and ten weight tables that are fetched once and never move — and writes one block of 2000 results
  whole; it keeps nothing between points.  So the proof data is the plain one: after the body every input
  buffer holds its block, the output buffer holds the body's one store over the blocks' values, and the
  invariant is the untouched rest.  The body's triple is run symbolically; the launch theorem then gives, for
  every weakly fair execution, termination without a fault, every staged array at what the write-backs leave
  and every other buffer as the host operations left it — and no host operation writes an argument.
-/
import proofs.«153533_j58291296141385_2_alg».proof.Proof.Gen.Kernel.Launch
import proofs.«153533_j58291296141385_2_alg».proof.Proof.Gen.Kernel.Skeleton
import proofs.«153533_j58291296141385_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is entered: the launch memory after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 9: the launch finds it as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 10: the launch finds it as it was. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 11: the launch finds it as it was. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 12: the launch finds it as it was. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 13: the launch finds it as it was. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 14: the launch finds it as it was. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 15: the launch finds it as it was. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 16: the launch finds it as it was. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 17: the launch finds it as it was. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 18: the launch finds it as it was. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 19: the launch finds it as it was. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 20: the launch finds it as it was. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 21: the launch finds it as it was. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (an unfetched window's
    block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not (an unfetched window's
    block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not (an unfetched window's
    block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not (an unfetched window's
    block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not (an unfetched window's
    block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not (an unfetched window's
    block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not (an unfetched window's
    block index has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not (an unfetched window's
    block index has not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not (an unfetched window's
    block index has not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not (an unfetched window's
    block index has not moved). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not (an unfetched window's
    block index has not moved). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not (an unfetched window's
    block index has not moved). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post — every staged array at what the write-backs leave, every other buffer
    as the launch found it — to the frame claim's: an argument a window stages is an INPUT's array, which no
    write-back touches; the others no window stages; and no host operation wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).1 10).trans (((dats 0 c).arrAt_in 10 rfl _).trans ((hA c 10).trans (V_main_arg20 m c))),
      ((h c).2 main_arg21 (Pipeline.mem_restRefs_of main_arg21 (by decide) (by decide))).trans (V_main_arg21 m c)⟩) h

/-! ## The body's accesses: every load and the one store take a whole buffer -/

abbrev r_S2000x88 : Rect S2000x88 := Rect.unit (s := S2000x88) ![0, 0] S2000x88.size inb_S2000x88_S2000x88_0_0
abbrev r_S2000x168 : Rect S2000x168 := Rect.unit (s := S2000x168) ![0, 0] S2000x168.size inb_S2000x168_S2000x168_0_0
abbrev r_S256x256 : Rect S256x256 := Rect.unit (s := S256x256) ![0, 0] S256x256.size inb_S256x256_S256x256_0_0
abbrev r_S1x256 : Rect S1x256 := Rect.unit (s := S1x256) ![0, 0] S1x256.size inb_S1x256_S1x256_0_0
abbrev r_S512x64 : Rect S512x64 := Rect.unit (s := S512x64) ![0, 0] S512x64.size inb_S512x64_S512x64_0_0
abbrev r_S320x16 : Rect S320x16 := Rect.unit (s := S320x16) ![0, 0] S320x16.size inb_S320x16_S320x16_0_0
abbrev r_S1x16 : Rect S1x16 := Rect.unit (s := S1x16) ![0, 0] S1x16.size inb_S1x16_S1x16_0_0
abbrev r_S16x128 : Rect S16x128 := Rect.unit (s := S16x128) ![0, 0] S16x128.size inb_S16x128_S16x128_0_0
abbrev r_S1x128 : Rect S1x128 := Rect.unit (s := S1x128) ![0, 0] S1x128.size inb_S1x128_S1x128_0_0
abbrev r_S1x1 : Rect S1x1 := Rect.unit (s := S1x1) ![0, 0] S1x1.size inb_S1x1_S1x1_0_0
abbrev r_S2000x1 : Rect S2000x1 := Rect.unit (s := S2000x1) ![0, 0] S2000x1.size inb_S2000x1_S2000x1_0_0

/-! ## What the body leaves in the output window's buffer -/

/-- The output buffer after the body, from the input blocks: its one store, whose value is the body's arithmetic
    (the skeleton's payloads) of the twelve blocks as loaded. -/
def out0_12 (x0 : Vec F S2000x88 .f32) (x1 : Vec F S2000x168 .f32) (x2 : Vec F S256x256 .bf16) (x3 : Vec F S1x256 .f32) (x4 : Vec F S256x256 .bf16) (x5 : Vec F S512x64 .bf16) (x6 : Vec F S320x16 .bf16) (x7 : Vec F S1x16 .f32) (x8 : Vec F S16x128 .bf16) (x9 : Vec F S1x128 .f32) (x10 : Vec F S1x128 .f32) (x11 : Vec F S1x1 .f32) : Vec F S2000x1 .f32 :=
  View.canon [⟨r_S2000x1, k0_pay1 (k0_pay3 (View.ld x0 r_S2000x88) (View.ld x1 r_S2000x168) (View.ld x2 r_S256x256) (View.ld x3 r_S1x256)) (k0_pay4 (View.ld x0 r_S2000x88) (View.ld x1 r_S2000x168) (View.ld x2 r_S256x256) (View.ld x3 r_S1x256)) (k0_pay5 (View.ld x0 r_S2000x88) (View.ld x1 r_S2000x168) (View.ld x2 r_S256x256) (View.ld x3 r_S1x256) (View.ld x4 r_S256x256)) (View.ld x5 r_S512x64) (View.ld x6 r_S320x16) (View.ld x7 r_S1x16) (View.ld x8 r_S16x128) (View.ld x9 r_S1x128) (View.ld x10 r_S1x128) (View.ld x11 r_S1x1)⟩]

/-- The one store covers the buffer. -/
theorem cover0_12 (p0 : Vec F S2000x1 .f32) (y : S2000x1.Idx) :
    ∃ pc ∈ ([⟨r_S2000x1, p0⟩] : List (View.Piece (Elt F) S2000x1 .f32)), y ∈ pc.1.set :=
  View.cover_of_tiled [⟨r_S2000x1, p0⟩] S2000x1.size (by rfl) y

/-! ## The body's triple -/

set_option maxHeartbeats 4000000 in
/-- The body on whole buffers, the inputs' at contents `xW` and the output's at anything, runs to a continuation that
    holds the inputs' as they were and the output's at `out0_12` of them. -/
theorem sound_kernel (c : Dev nD) (E : Set ℕ) (i : grid0.Coords) (arg1 : Memref sig .tc .vmem S2000x88 .f32) (harg1 : arg1.IsWhole) (arg2 : Memref sig .tc .vmem S2000x168 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S512x64 .bf16) (harg6 : arg6.IsWhole) (arg7 : Memref sig .tc .vmem S320x16 .bf16) (harg7 : arg7.IsWhole) (arg8 : Memref sig .tc .vmem S1x16 .f32) (harg8 : arg8.IsWhole) (arg9 : Memref sig .tc .vmem S16x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1 .f32) (harg12 : arg12.IsWhole) (arg13 : Memref sig .tc .vmem S2000x1 .f32) (harg13 : arg13.IsWhole)
    (x0 : Vec F S2000x88 .f32) (x1 : Vec F S2000x168 .f32) (x2 : Vec F S256x256 .bf16) (x3 : Vec F S1x256 .f32) (x4 : Vec F S256x256 .bf16) (x5 : Vec F S512x64 .bf16) (x6 : Vec F S320x16 .bf16) (x7 : Vec F S1x16 .f32) (x8 : Vec F S16x128 .bf16) (x9 : Vec F S1x128 .f32) (x10 : Vec F S1x128 .f32) (x11 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11)) -∗ K ⟨⟩))
      ⊢ wp frame (wpE (defs₀ (F := F)) Variants.none c none) E (cc0__cam_kernel i arg1 harg1 arg2 harg2 arg3 harg3 arg4 harg4 arg5 harg5 arg6 harg6 arg7 harg7 arg8 harg8 arg9 harg9 arg10 harg10 arg11 harg11 arg12 harg12 arg13 harg13) K := by
  simp only [cc0__cam_kernel_eq_skeleton]; unfold cc0__cam_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover0_12 _)

/-! ## The proof data -/

/-- On core `c`: the arrays as the launch finds them; after the body at point `t` each input's buffer at its block and
    the output's at `out0_12` of the blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 2000000 in
/-- The body at any point: the inputs' buffers hold their blocks, so `sound_kernel` applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, every staged array at what the proof data's
    write-backs leave and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its twenty-two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.Kernel.Frame

end
-- ==== Proof.KernelIdealFrame.lean ====
/-
  The frame of the program's one launch, written against the pipeline library's frame theorem.

  @main is a line of host operations (they lay out the packed weight tables) followed by one launch over a
  grid of 250 points.  At each point the body reads twelve staged blocks whole — two blocks of 2000 feature
  rows and ten weight tables that are fetched once and never move — and writes one block of 2000 results
  whole; it keeps nothing between points.  So the proof data is the plain one: after the body every input
  buffer holds its block, the output buffer holds the body's one store over the blocks' values, and the
  invariant is the untouched rest.  The body's triple is run symbolically; the launch theorem then gives, for
  every weakly fair execution, termination without a fault, every staged array at what the write-backs leave
  and every other buffer as the host operations left it — and no host operation writes an argument.
-/
import proofs.«153533_j58291296141385_2_alg».proof.Proof.Gen.KernelIdeal.Launch
import proofs.«153533_j58291296141385_2_alg».proof.Proof.Gen.KernelIdeal.Skeleton
import proofs.«153533_j58291296141385_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is entered: the launch memory after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 9: the launch finds it as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 10: the launch finds it as it was. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 11: the launch finds it as it was. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 12: the launch finds it as it was. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 13: the launch finds it as it was. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 14: the launch finds it as it was. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 15: the launch finds it as it was. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 16: the launch finds it as it was. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 17: the launch finds it as it was. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 18: the launch finds it as it was. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 19: the launch finds it as it was. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 20: the launch finds it as it was. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 21: the launch finds it as it was. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (an unfetched window's
    block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not (an unfetched window's
    block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not (an unfetched window's
    block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not (an unfetched window's
    block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not (an unfetched window's
    block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not (an unfetched window's
    block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not (an unfetched window's
    block index has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not (an unfetched window's
    block index has not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not (an unfetched window's
    block index has not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not (an unfetched window's
    block index has not moved). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not (an unfetched window's
    block index has not moved). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not (an unfetched window's
    block index has not moved). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post — every staged array at what the write-backs leave, every other buffer
    as the launch found it — to the frame claim's: an argument a window stages is an INPUT's array, which no
    write-back touches; the others no window stages; and no host operation wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).1 10).trans (((dats 0 c).arrAt_in 10 rfl _).trans ((hA c 10).trans (V_main_arg20 m c))),
      ((h c).2 main_arg21 (Pipeline.mem_restRefs_of main_arg21 (by decide) (by decide))).trans (V_main_arg21 m c)⟩) h

/-! ## The body's accesses: every load and the one store take a whole buffer -/

abbrev r_S2000x88 : Rect S2000x88 := Rect.unit (s := S2000x88) ![0, 0] S2000x88.size inb_S2000x88_S2000x88_0_0
abbrev r_S2000x168 : Rect S2000x168 := Rect.unit (s := S2000x168) ![0, 0] S2000x168.size inb_S2000x168_S2000x168_0_0
abbrev r_S256x256 : Rect S256x256 := Rect.unit (s := S256x256) ![0, 0] S256x256.size inb_S256x256_S256x256_0_0
abbrev r_S1x256 : Rect S1x256 := Rect.unit (s := S1x256) ![0, 0] S1x256.size inb_S1x256_S1x256_0_0
abbrev r_S512x64 : Rect S512x64 := Rect.unit (s := S512x64) ![0, 0] S512x64.size inb_S512x64_S512x64_0_0
abbrev r_S320x16 : Rect S320x16 := Rect.unit (s := S320x16) ![0, 0] S320x16.size inb_S320x16_S320x16_0_0
abbrev r_S1x16 : Rect S1x16 := Rect.unit (s := S1x16) ![0, 0] S1x16.size inb_S1x16_S1x16_0_0
abbrev r_S16x128 : Rect S16x128 := Rect.unit (s := S16x128) ![0, 0] S16x128.size inb_S16x128_S16x128_0_0
abbrev r_S1x128 : Rect S1x128 := Rect.unit (s := S1x128) ![0, 0] S1x128.size inb_S1x128_S1x128_0_0
abbrev r_S1x1 : Rect S1x1 := Rect.unit (s := S1x1) ![0, 0] S1x1.size inb_S1x1_S1x1_0_0
abbrev r_S2000x1 : Rect S2000x1 := Rect.unit (s := S2000x1) ![0, 0] S2000x1.size inb_S2000x1_S2000x1_0_0

/-! ## What the body leaves in the output window's buffer -/

/-- The output buffer after the body, from the input blocks: its one store, whose value is the body's arithmetic
    (the skeleton's payloads) of the twelve blocks as loaded. -/
def out0_12 (x0 : Vec F S2000x88 .f32) (x1 : Vec F S2000x168 .f32) (x2 : Vec F S256x256 .bf16) (x3 : Vec F S1x256 .f32) (x4 : Vec F S256x256 .bf16) (x5 : Vec F S512x64 .bf16) (x6 : Vec F S320x16 .bf16) (x7 : Vec F S1x16 .f32) (x8 : Vec F S16x128 .bf16) (x9 : Vec F S1x128 .f32) (x10 : Vec F S1x128 .f32) (x11 : Vec F S1x1 .f32) : Vec F S2000x1 .f32 :=
  View.canon [⟨r_S2000x1, k0_pay1 (k0_pay3 (View.ld x0 r_S2000x88) (View.ld x1 r_S2000x168) (View.ld x2 r_S256x256) (View.ld x3 r_S1x256)) (k0_pay4 (View.ld x0 r_S2000x88) (View.ld x1 r_S2000x168) (View.ld x2 r_S256x256) (View.ld x3 r_S1x256)) (k0_pay5 (View.ld x0 r_S2000x88) (View.ld x1 r_S2000x168) (View.ld x2 r_S256x256) (View.ld x3 r_S1x256) (View.ld x4 r_S256x256)) (View.ld x5 r_S512x64) (View.ld x6 r_S320x16) (View.ld x7 r_S1x16) (View.ld x8 r_S16x128) (View.ld x9 r_S1x128) (View.ld x10 r_S1x128) (View.ld x11 r_S1x1)⟩]

/-- The one store covers the buffer. -/
theorem cover0_12 (p0 : Vec F S2000x1 .f32) (y : S2000x1.Idx) :
    ∃ pc ∈ ([⟨r_S2000x1, p0⟩] : List (View.Piece (Elt F) S2000x1 .f32)), y ∈ pc.1.set :=
  View.cover_of_tiled [⟨r_S2000x1, p0⟩] S2000x1.size (by rfl) y

/-! ## The body's triple -/

set_option maxHeartbeats 4000000 in
/-- The body on whole buffers, the inputs' at contents `xW` and the output's at anything, runs to a continuation that
    holds the inputs' as they were and the output's at `out0_12` of them. -/
theorem sound_kernel (c : Dev nD) (E : Set ℕ) (i : grid0.Coords) (arg1 : Memref sig .tc .vmem S2000x88 .f32) (harg1 : arg1.IsWhole) (arg2 : Memref sig .tc .vmem S2000x168 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S512x64 .bf16) (harg6 : arg6.IsWhole) (arg7 : Memref sig .tc .vmem S320x16 .bf16) (harg7 : arg7.IsWhole) (arg8 : Memref sig .tc .vmem S1x16 .f32) (harg8 : arg8.IsWhole) (arg9 : Memref sig .tc .vmem S16x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1 .f32) (harg12 : arg12.IsWhole) (arg13 : Memref sig .tc .vmem S2000x1 .f32) (harg13 : arg13.IsWhole)
    (x0 : Vec F S2000x88 .f32) (x1 : Vec F S2000x168 .f32) (x2 : Vec F S256x256 .bf16) (x3 : Vec F S1x256 .f32) (x4 : Vec F S256x256 .bf16) (x5 : Vec F S512x64 .bf16) (x6 : Vec F S320x16 .bf16) (x7 : Vec F S1x16 .f32) (x8 : Vec F S16x128 .bf16) (x9 : Vec F S1x128 .f32) (x10 : Vec F S1x128 .f32) (x11 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11)) -∗ K ⟨⟩))
      ⊢ wp frame (wpE (defs₀ (F := F)) Variants.none c none) E (cc0__cam_kernel i arg1 harg1 arg2 harg2 arg3 harg3 arg4 harg4 arg5 harg5 arg6 harg6 arg7 harg7 arg8 harg8 arg9 harg9 arg10 harg10 arg11 harg11 arg12 harg12 arg13 harg13) K := by
  simp only [cc0__cam_kernel_eq_skeleton]; unfold cc0__cam_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover0_12 _)

/-! ## The proof data -/

/-- On core `c`: the arrays as the launch finds them; after the body at point `t` each input's buffer at its block and
    the output's at `out0_12` of the blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 2000000 in
/-- The body at any point: the inputs' buffers hold their blocks, so `sound_kernel` applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, every staged array at what the proof data's
    write-backs leave and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its twenty-two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.KernelIdeal.Frame

end
-- ==== Proof.RowSpec.lean ====
/-
  One row of the fused gating network, as mathematics over the extended reals.

  Both programs act on the two feature arrays row by row: row `r` of the result depends only on row `r` of
  each feature array and on the weights.  This module states that dependence twice, over plain rows
  `Fin n → EReal`:

  * `refRow`  — the network as written layer by layer: two rows normalised to unit Euclidean length (the
    norm clamped below by a small literal), two dense encoders, a gate `tanh (x · (av · Aᵀ) / 16)` per
    modality, two rectified mixing layers, two attention heads, a two-layer regressor;
  * `kerRow`  — the same network over PACKED weights: the two normalised rows laid side by side and pushed
    through five wide products whose weight matrices are block-diagonal arrangements of the narrow ones
    (`pack`), the gate's `1/16` folded into the affine weights, and the last product taken as a lane sum.

  Nothing here mentions a program; the other modules identify each program's result with one of the two
  functions and prove `kerRow (pack P) = refRow P`.
-/
import Idealize.ShloMosaic.PureOps.Ideal
import Idealize.ShloMosaic.Lib.ValueIdx

noncomputable section

namespace RowOps

open Idealize.ShloMosaic

/-- A row of `n` extended reals. -/
abbrev Row (n : ℕ) := Fin n → EReal
/-- An `r × c` table of extended reals. -/
abbrev Mat (r c : ℕ) := Fin r → Fin c → EReal

/-- A two-axis array read as a table. -/
def mat {r c : ℕ} (A : (⟨2, ![r, c]⟩ : Shape).Idx → EReal) : Mat r c := fun i j => A (ValueIdx.ix2 i j)
/-- A one-axis array read as a row. -/
def vec {n : ℕ} (A : (⟨1, ![n]⟩ : Shape).Idx → EReal) : Row n := fun i => A (ValueIdx.ix1 i)

/-- The inner product of two rows. -/
def dot {n : ℕ} (x w : Row n) : EReal := ∑ k, x k * w k

/-- The literal both programs clamp a norm with (the single-precision value nearest 1e-12). -/
def eps : EReal := Ideal.ofBits .f32 0x2B8CBCCC#32
/-- The divisor `16` of the layer-by-layer gate. -/
def c16 : EReal := Ideal.ofBits .f32 0x41800000#32
/-- The factor `1/16` the packed affine weights carry. -/
def c16inv : EReal := Ideal.ofBits .f32 0x3D800000#32

/-- A row divided by its Euclidean norm, the norm clamped below by `eps`. -/
def unit {n : ℕ} (x : Row n) : Row n :=
  fun k => Ideal.div (x k) (max (Ideal.sqrt (∑ i, x i * x i)) eps)

/-- A dense layer whose weights are stored `[out, in]`. -/
def lin {i o : ℕ} (W : Mat o i) (b : Row o) (x : Row i) : Row o := fun j => dot x (W j) + b j

/-- The twenty weight arrays, as tables and rows. -/
structure Params where
  e1_w : Mat 128 88
  e1_b : Row 128
  e2_w : Mat 128 168
  e2_b : Row 128
  aff_a : Mat 128 256
  aff_v : Mat 128 256
  w_a : Mat 32 128
  w_v : Mat 32 128
  w_ca : Mat 32 128
  w_cv : Mat 32 128
  w_ha : Mat 8 32
  w_hv : Mat 8 32
  e3_w : Mat 8 128
  e3_b : Row 8
  e4_w : Mat 8 128
  e4_b : Row 8
  r1_w : Mat 128 16
  r1_b : Row 128
  r2_w : Mat 1 128
  r2_b : Row 1

/-- The twenty weight arrays of either program (arguments 2 to 21, in order) as `Params`. -/
def paramsOf
    (a2 : (⟨2, ![128, 88]⟩ : Shape).Idx → EReal) (a3 : (⟨1, ![128]⟩ : Shape).Idx → EReal)
    (a4 : (⟨2, ![128, 168]⟩ : Shape).Idx → EReal) (a5 : (⟨1, ![128]⟩ : Shape).Idx → EReal)
    (a6 : (⟨2, ![128, 256]⟩ : Shape).Idx → EReal) (a7 : (⟨2, ![128, 256]⟩ : Shape).Idx → EReal)
    (a8 a9 a10 a11 : (⟨2, ![32, 128]⟩ : Shape).Idx → EReal)
    (a12 a13 : (⟨2, ![8, 32]⟩ : Shape).Idx → EReal)
    (a14 : (⟨2, ![8, 128]⟩ : Shape).Idx → EReal) (a15 : (⟨1, ![8]⟩ : Shape).Idx → EReal)
    (a16 : (⟨2, ![8, 128]⟩ : Shape).Idx → EReal) (a17 : (⟨1, ![8]⟩ : Shape).Idx → EReal)
    (a18 : (⟨2, ![128, 16]⟩ : Shape).Idx → EReal) (a19 : (⟨1, ![128]⟩ : Shape).Idx → EReal)
    (a20 : (⟨2, ![1, 128]⟩ : Shape).Idx → EReal) (a21 : (⟨1, ![1]⟩ : Shape).Idx → EReal) : Params where
  e1_w := mat a2
  e1_b := vec a3
  e2_w := mat a4
  e2_b := vec a5
  aff_a := mat a6
  aff_v := mat a7
  w_a := mat a8
  w_v := mat a9
  w_ca := mat a10
  w_cv := mat a11
  w_ha := mat a12
  w_hv := mat a13
  e3_w := mat a14
  e3_b := vec a15
  e4_w := mat a16
  e4_b := vec a17
  r1_w := mat a18
  r1_b := vec a19
  r2_w := mat a20
  r2_b := vec a21

/-- The network layer by layer, on one row of each feature array. -/
def refRow (P : Params) (x1 : Row 88) (x2 : Row 168) : EReal :=
  let aud : Row 128 := lin P.e1_w P.e1_b (unit x1)
  let vis : Row 128 := lin P.e2_w P.e2_b (unit x2)
  let av : Row 256 := Fin.append aud vis
  let a_t : Row 128 := fun j => dot av (P.aff_a j)
  let v_t : Row 128 := fun j => dot av (P.aff_v j)
  let aatt : Row 128 := fun j => Ideal.tanh (Ideal.div (aud j * a_t j) c16)
  let vatt : Row 128 := fun j => Ideal.tanh (Ideal.div (vis j * v_t j) c16)
  let h_a : Row 32 := fun i => max (dot aatt (P.w_ca i) + dot aud (P.w_a i)) 0
  let h_v : Row 32 := fun i => max (dot vatt (P.w_cv i) + dot vis (P.w_v i)) 0
  let att_a : Row 8 := fun k => dot h_a (P.w_ha k) + dot aud (P.e3_w k) + P.e3_b k
  let att_v : Row 8 := fun k => dot h_v (P.w_hv k) + dot vis (P.e4_w k) + P.e4_b k
  let avf : Row 16 := Fin.append att_a att_v
  let hid : Row 128 := fun l => dot avf (P.r1_w l) + P.r1_b l
  dot hid (P.r2_w 0) + P.r2_b 0

/-- The packed weights: every table is stored `[in, out]` (the contracted index first). -/
structure Packed where
  W1 : Mat 256 256
  b1 : Row 256
  W2 : Mat 256 256
  W3 : Mat 512 64
  W4 : Mat 320 16
  b4 : Row 16
  r1T : Mat 16 128
  r1b : Row 128
  r2 : Row 128
  r2b : EReal

/-- The network over packed weights, on one row of each feature array. -/
def kerRow (Q : Packed) (x1 : Row 88) (x2 : Row 168) : EReal :=
  let cat : Row 256 := Fin.append (unit x1) (unit x2)
  let av : Row 256 := fun j => dot cat (fun k => Q.W1 k j) + Q.b1 j
  let aud : Row 128 := fun j => av (Fin.castAdd 128 j)
  let vis : Row 128 := fun j => av (Fin.natAdd 128 j)
  let atvt : Row 256 := fun j => dot av (fun k => Q.W2 k j)
  let aatt : Row 128 := fun j => Ideal.tanh (aud j * atvt (Fin.castAdd 128 j))
  let vatt : Row 128 := fun j => Ideal.tanh (vis j * atvt (Fin.natAdd 128 j))
  let hset : Row 512 := Fin.append (Fin.append (Fin.append aatt aud) vatt) vis
  let h : Row 64 := fun i => max (dot hset (fun k => Q.W3 k i)) 0
  let cat2 : Row 320 := Fin.append (Fin.append h aud) vis
  let avf : Row 16 := fun k => dot cat2 (fun j => Q.W4 j k) + Q.b4 k
  let hid : Row 128 := fun l => dot avf (fun k => Q.r1T k l) + Q.r1b l
  (∑ l, hid l * Q.r2 l) + Q.r2b

/-- A table of zeros. -/
def zeroMat (r c : ℕ) : Mat r c := fun _ _ => 0

/-- Two tables side by side (joined along the second index). -/
def hcat {r a b : ℕ} (A : Mat r a) (B : Mat r b) : Mat r (a + b) := fun i => Fin.append (A i) (B i)
/-- Two tables one above the other (joined along the first index). -/
def vcat {a b c : ℕ} (A : Mat a c) (B : Mat b c) : Mat (a + b) c := Fin.append A B
/-- A table transposed. -/
def tr {r c : ℕ} (A : Mat r c) : Mat c r := fun j i => A i j

/-- How the packed weights are laid out from the twenty arrays: transposed to `[in, out]`, joined with zero
    tables into block-diagonal form, the affine pair scaled by `1/16`. -/
def pack (P : Params) : Packed where
  W1 := vcat (hcat (tr P.e1_w) (zeroMat 88 128)) (hcat (zeroMat 168 128) (tr P.e2_w))
  b1 := Fin.append P.e1_b P.e2_b
  W2 := hcat (fun k j => tr P.aff_a k j * c16inv) (fun k j => tr P.aff_v k j * c16inv)
  W3 := vcat (hcat (vcat (tr P.w_ca) (tr P.w_a)) (zeroMat 256 32)) (hcat (zeroMat 256 32) (vcat (tr P.w_cv) (tr P.w_v)))
  W4 := vcat (vcat (vcat (hcat (tr P.w_ha) (zeroMat 32 8)) (hcat (zeroMat 32 8) (tr P.w_hv))) (hcat (tr P.e3_w) (zeroMat 128 8))) (hcat (zeroMat 128 8) (tr P.e4_w))
  b4 := Fin.append P.e3_b P.e4_b
  r1T := tr P.r1_w
  r1b := P.r1_b
  r2 := P.r2_w 0
  r2b := P.r2_b 0

end RowOps

end
-- ==== Proof.KerRow.lean ====
/-
  The array the body stores, read at one row, is the packed network on that row.

  From the two loaded feature blocks (2000 rows of 88 and of 168 numbers) and the loaded packed weight blocks the
  body computes a 2000-by-1 array.  Every operation in that computation acts row by row: a lane sum reads one
  row, a product with a weight table reads one row of its left operand, a one-row bias is repeated down the rows,
  a side-by-side concatenation or a column slice keeps the row.  So the value at row p is a function of row p of
  each feature block and of the weights alone, and this module computes that function layer by layer:

  * each feature row divided by its Euclidean norm, the norm clamped below (unit_apply);
  * the two normalised rows side by side, times W1, plus b1: the 256-wide encoder output avR (pay2_apply), and
    its two halves audR, visR (pay3_apply, pay4_apply);
  * the gates tanh (half * (av · W2)) laid out with the halves as a 512-wide row hsetR (pay5_apply);
  * the rectified product with W3, joined with the halves, times W4 plus b4, times the regressor table plus its
    bias, times the last row and summed over the lanes, plus the last bias: outR (pay1_apply).

  At the extended reals a change of format is the identity and every sum is exact, so each step is an equation
  between extended reals; the reading of each array operation at an index comes from the library.  The last
  theorem, pay_apply, states the result against RowOps.kerRow.
-/
import proofs.«153533_j58291296141385_2_alg».proof.Proof.Gen.KernelIdeal.Skeleton
import proofs.«153533_j58291296141385_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal.Gen RowOps

/-- A plain rows-by-columns product into the zero accumulator, read at row p and column j: the sum over the
    contraction coordinate k of (row p of the left operand at k) times (row k of the right operand at j). -/
theorem matmul0_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (j : Fin N) :
    matmul d prec lhs rhs (constant ⟨2, ![M, N]⟩ .f32 0x00000000#32) (ix2 p j)
      = ∑ k : Fin K, lhs (ix2 p k) * rhs (ix2 k j) := by
  obtain ⟨lc, rc, ln, rn, lb, rb, wf⟩ := d
  simp only at hlc hrc hln hrn hlb hrb
  subst hlc hrc hln hrn hlb hrb
  refine (Ideal.matmul_constant_zero_apply _ prec lhs rhs (ix2 p j)).trans ?_
  rw [← Equiv.sum_comp (contrEquiv1 _ K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 p j)
      ((contrEquiv1 _ K rfl rfl).symm k) = ix2 p k := funext fun a => Fin.ext (by
    match a with
    | ⟨0, _⟩ => rfl
    | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 p j)
      ((contrEquiv1 _ K rfl rfl).symm k) = ix2 k j := funext fun a => Fin.ext (by
    match a with
    | ⟨0, _⟩ => exact (DotDims.rhsIdx_val_of_single _ rfl _ _).trans hk
    | ⟨1, _⟩ => rfl)
  rw [el, er]

/-- A shape cast between equal shapes reads the operand at the same index. -/
theorem shapeCast_id_apply {s : Shape} {α : Type} (x : s.Idx → α) (h : s.ShapeCasts s) (i : s.Idx) :
    shapeCast s x h i = x i :=
  shapeCast_apply x h i i rfl

/-- The lane sum of an m-by-n array at row p: the sum over the n columns of that row. -/
theorem rowSum_apply {m n : ℕ} (v : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (p : Fin m) :
    multiReduction .add [1] ⟨1, ![m]⟩ v 0x00000000#32 h hφ hacc (ix1 p) = ∑ k : Fin n, v (ix2 p k) := by
  rw [Ideal.multiReduction_add_single]
  refine Finset.sum_congr rfl fun k _ => congrArg v (funext fun a => Fin.ext ?_)
  match a with
  | ⟨0, _⟩ => rfl
  | ⟨1, _⟩ => rfl

/-- An [m] array cast to [m, 1] reads, at (p, u), the operand at p. -/
theorem shapeCast_a_a1_apply {m : ℕ} {α : Type} (x : (⟨1, ![m]⟩ : Shape).Idx → α)
    (h : (⟨1, ![m]⟩ : Shape).ShapeCasts ⟨2, ![m, 1]⟩) (p : Fin m) (u : Fin 1) :
    shapeCast ⟨2, ![m, 1]⟩ x h (ix2 p u) = x (ix1 p) :=
  shapeCast_apply x h _ _ (by
    rw [Shape.rowMajor_val_two, Shape.rowMajor_val_one]
    show p.val = p.val * 1 + u.val
    have := u.isLt
    omega)

/-- An [m, 1] column broadcast to [m, n] reads, at (p, c), the column at p. -/
theorem broadcastTo_a1_ab_apply {m n : ℕ} {α : Type} (v : (⟨2, ![m, 1]⟩ : Shape).Idx → α)
    (h : (⟨2, ![m, 1]⟩ : Shape).Broadcasts ⟨2, ![m, n]⟩) (p : Fin m) (c : Fin n) :
    broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

/-- A row divided by its Euclidean norm clamped below: the array expression the program writes, read at
    (p, j), is the normalised row p at j. -/
theorem unit_apply {m n : ℕ} (x : FVec Ideal ⟨2, ![m, n]⟩ .f32)
    (hred : (⟨2, ![m, n]⟩ : Shape).Reduces [1] ⟨1, ![m]⟩) (hφ : FKind.Formats .f32)
    (hacc : (0x00000000#32 : BitVec 32) = FKind.add.neutral .f32 hφ)
    (hsc : (⟨1, ![m]⟩ : Shape).ShapeCasts ⟨2, ![m, 1]⟩)
    (hb : (⟨2, ![m, 1]⟩ : Shape).Broadcasts ⟨2, ![m, n]⟩) (p : Fin m) (j : Fin n) :
    divf x (broadcastTo ⟨2, ![m, n]⟩
        (maximumf (sqrt (shapeCast ⟨2, ![m, 1]⟩ (multiReduction .add [1] ⟨1, ![m]⟩ (mulf x x) 0x00000000#32 hred hφ hacc) hsc))
          (broadcast ⟨2, ![m, 1]⟩ (Scalar.ofBits .f32 0x2B8CBCCC#32))) hb) (ix2 p j)
      = unit (mat x p) j := by
  refine (divf_apply _ _ _).trans ?_
  rw [broadcastTo_a1_ab_apply]
  show Ideal.div (x (ix2 p j)) (max (Ideal.sqrt (shapeCast ⟨2, ![m, 1]⟩ _ hsc (ix2 p (0 : Fin 1)))) (Ideal.ofBits .f32 0x2B8CBCCC#32)) = _
  rw [shapeCast_a_a1_apply, rowSum_apply]
  rfl

/-- One piece of a column-wise concatenation of two-axis arrays: at (p, J), with J the column pre + c inside
    the piece that starts at column pre, the concatenation reads that piece at (p, c). -/
theorem concat1_piece {m N : ℕ} {α : Type} (xs : List ((s : Shape) × (s.Idx → α)))
    (h : Shape.Concatenates (xs.map (·.1)) ⟨2, ![m, N]⟩ 1) (k : ℕ) (hk : k < xs.length) (n : ℕ)
    (x₁ : (⟨2, ![m, n]⟩ : Shape).Idx → α) (hxk : xs[k] = ⟨⟨2, ![m, n]⟩, x₁⟩) (pre : ℕ)
    (hpre : (((xs.take k).map (·.1)).map fun s : Shape =>
        if h : s.rank = (⟨2, ![m, N]⟩ : Shape).rank then s.size ((1 : Fin (⟨2, ![m, N]⟩ : Shape).rank).cast h.symm) else 0).sum = pre)
    (p : Fin m) (c : Fin n) (J : Fin N) (hJ : J.val = pre + c.val) :
    concatenate ⟨2, ![m, N]⟩ 1 xs h (ix2 p J) = x₁ (ix2 p c) :=
  concatenate_apply_piece 1 xs h (ix2 p J) k hk _ x₁ hxk rfl pre hpre (ix2 p c)
    (fun b hb => by
      match b with
      | ⟨0, _⟩ => rfl
      | ⟨1, _⟩ => exact absurd rfl hb)
    (by show pre + c.val = J.val; omega)

/-- The 256-wide encoder output over packed weights: both normalised rows side by side, times W1, plus b1. -/
def avR (W1 : Mat 256 256) (b1 : Row 256) (x1 : Row 88) (x2 : Row 168) : Row 256 :=
  fun j => dot (Fin.append (unit x1) (unit x2)) (fun k => W1 k j) + b1 j

/-- The first 128 entries of a 256-row. -/
def audR (av : Row 256) : Row 128 := fun j => av (Fin.castAdd 128 j)
/-- The last 128 entries of a 256-row. -/
def visR (av : Row 256) : Row 128 := fun j => av (Fin.natAdd 128 j)
/-- The 512-wide row the mixing product reads: both gates tanh (x * (av · W2)) and both halves of av,
    laid out gate, half, gate, half. -/
def hsetR (av : Row 256) (W2 : Mat 256 256) : Row 512 :=
  Fin.append (Fin.append (Fin.append
    (fun j => Ideal.tanh (audR av j * dot av (fun k => W2 k (Fin.castAdd 128 j)))) (audR av))
    (fun j => Ideal.tanh (visR av j * dot av (fun k => W2 k (Fin.natAdd 128 j))))) (visR av)

/-- A dense layer whose weights are stored [in, out]. -/
def linT {i o : ℕ} (W : Mat i o) (b : Row o) (x : Row i) : Row o := fun j => dot x (fun k => W k j) + b j
/-- The rectified mixing layer over packed weights. -/
def hR (hset : Row 512) (W3 : Mat 512 64) : Row 64 := fun i => max (dot hset (fun k => W3 k i)) 0
/-- The 320-wide row the attention product reads. -/
def cat2R (h : Row 64) (aud vis : Row 128) : Row 320 := Fin.append (Fin.append h aud) vis
/-- The tail of the packed network: mixing, attention heads, regressor, the last product as a lane sum. -/
def outR (hset : Row 512) (aud vis : Row 128) (W3 : Mat 512 64) (W4 : Mat 320 16) (b4 : Row 16)
    (r1T : Mat 16 128) (r1b r2 : Row 128) (r2b : EReal) : EReal :=
  (∑ l, linT r1T r1b (linT W4 b4 (cat2R (hR hset W3) aud vis)) l * r2 l) + r2b

/-- Two arrays of 88 and 168 columns laid side by side, read at (p, k): the two rows appended, at k. -/
theorem cat2_apply (a : FVec Ideal S2000x88 .f32) (b : FVec Ideal S2000x168 .f32) (p : Fin 2000) (k : Fin 256) :
    concatenate S2000x256 1 [⟨S2000x88, a⟩, ⟨S2000x168, b⟩] concatenates_S2000x88_S2000x168_S2000x256_d1 (ix2 p k)
      = Fin.append (fun i => a (ix2 p i)) (fun i => b (ix2 p i)) k := by
  refine Fin.addCases (m := 88) (n := 168)
    (motive := fun k => concatenate S2000x256 1 [⟨S2000x88, a⟩, ⟨S2000x168, b⟩]
        concatenates_S2000x88_S2000x168_S2000x256_d1 (ix2 p k)
      = Fin.append (fun i => a (ix2 p i)) (fun i => b (ix2 p i)) k) (fun i => ?_) (fun i => ?_) k
  · rw [Fin.append_left]
    exact concat1_piece _ _ 0 (by simp) 88 a rfl 0 rfl p i _ (Nat.zero_add _).symm
  · rw [Fin.append_right]
    exact concat1_piece _ _ 1 (by simp) 168 b rfl 88 rfl p i _ rfl

/-- The first payload, read at row p and column j: the 256-wide encoder output of row p. -/
theorem pay2_apply (x0 : Vec Ideal S2000x88 .f32) (x1 : Vec Ideal S2000x168 .f32) (w1 : Vec Ideal S256x256 .bf16)
    (b1 : Vec Ideal S1x256 .f32) (p : Fin 2000) (j : Fin 256) :
    k0_pay2 (F := Ideal) x0 x1 w1 b1 (ix2 p j) = avR (mat w1) (mat b1 0) (mat x0 p) (mat x1 p) j := by
  unfold k0_pay2
  dsimp only
  rw [addf_apply, broadcastTo_1b_ab_apply, shapeCast_id_apply, matmul0_apply _ rfl rfl rfl rfl rfl rfl]
  refine congrArg₂ (· + ·) (Finset.sum_congr rfl fun k _ => ?_) rfl
  rw [shapeCast_id_apply, truncf_apply, cat2_apply]
  exact congrArg₂ (fun (u : Row 88) (v : Row 168) => Fin.append u v k * w1 (ix2 k j))
    (funext fun i => unit_apply x0 reduces_S2000x88_S2000 (.inl rfl) rfl shapeCasts_S2000_S2000x1
      broadcasts_S2000x1_S2000x88 p i)
    (funext fun i => unit_apply x1 reduces_S2000x168_S2000 (.inl rfl) rfl shapeCasts_S2000_S2000x1
      broadcasts_S2000x1_S2000x168 p i)

/-- A function on Fin (m + n) that agrees with u on the first m places and with v on the last n is their
    concatenation. -/
theorem append_ext {m n : ℕ} {α : Type} (f : Fin (m + n) → α) (u : Fin m → α) (v : Fin n → α)
    (hl : ∀ i, f (Fin.castAdd n i) = u i) (hr : ∀ i, f (Fin.natAdd m i) = v i) : f = Fin.append u v :=
  funext fun k => Fin.addCases (motive := fun k => f k = Fin.append u v k)
    (fun i => by rw [Fin.append_left]; exact hl i) (fun i => by rw [Fin.append_right]; exact hr i) k

/-- The product with the 256-by-256 weights, specialised: row p of the left operand against column j. -/
theorem mm256 {φ₁ φ₂ : FTy} (x : FVec Ideal S2000x256 φ₁) (w : FVec Ideal S256x256 φ₂) (p : Fin 2000) (j : Fin 256) :
    matmul dot_S2000x256_S256x256_S2000x256_1_0_0_1_n_n none x w (constant S2000x256 .f32 0x00000000#32) (ix2 p j)
      = ∑ k : Fin 256, x (ix2 p k) * w (ix2 k j) :=
  matmul0_apply _ rfl rfl rfl rfl rfl rfl none x w p j

/-- The first column slice of the first payload: the first half of the encoder output of row p. -/
theorem pay3_apply (x0 : Vec Ideal S2000x88 .f32) (x1 : Vec Ideal S2000x168 .f32) (w1 : Vec Ideal S256x256 .bf16)
    (b1 : Vec Ideal S1x256 .f32) (p : Fin 2000) (j : Fin 128) :
    k0_pay3 (F := Ideal) x0 x1 w1 b1 (ix2 p j) = audR (avR (mat w1) (mat b1 0) (mat x0 p) (mat x1 p)) j := by
  unfold k0_pay3
  rw [slice2_axis1_apply 0 _ _ p j (Fin.castAdd 128 j) (Nat.zero_add _).symm, pay2_apply]
  rfl

/-- The second column slice of the first payload: the second half of the encoder output of row p. -/
theorem pay4_apply (x0 : Vec Ideal S2000x88 .f32) (x1 : Vec Ideal S2000x168 .f32) (w1 : Vec Ideal S256x256 .bf16)
    (b1 : Vec Ideal S1x256 .f32) (p : Fin 2000) (j : Fin 128) :
    k0_pay4 (F := Ideal) x0 x1 w1 b1 (ix2 p j) = visR (avR (mat w1) (mat b1 0) (mat x0 p) (mat x1 p)) j := by
  unfold k0_pay4
  rw [slice2_axis1_apply 128 _ _ p j (Fin.natAdd 128 j) rfl, pay2_apply]
  rfl

/-- The product of the encoder output with W2, read at (p, c): the inner product of row p's encoder output
    with column c of W2. -/
theorem atvt_apply (x0 : Vec Ideal S2000x88 .f32) (x1 : Vec Ideal S2000x168 .f32) (w1 : Vec Ideal S256x256 .bf16)
    (b1 : Vec Ideal S1x256 .f32) (w2 : Vec Ideal S256x256 .bf16) (p : Fin 2000) (c : Fin 256) :
    matmul dot_S2000x256_S256x256_S2000x256_1_0_0_1_n_n none
        (truncf .bf16 (k0_pay2 (F := Ideal) x0 x1 w1 b1) bitsLt_bf16_f32)
        (shapeCast S256x256 w2 shapeCasts_S256x256_S256x256 : FVec Ideal S256x256 .bf16)
        (constant S2000x256 .f32 0x00000000#32) (ix2 p c)
      = dot (avR (mat w1) (mat b1 0) (mat x0 p) (mat x1 p)) (fun k => mat w2 k c) := by
  rw [mm256]
  exact Finset.sum_congr rfl fun k _ => by rw [truncf_apply, pay2_apply, shapeCast_id_apply]; rfl

/-- Four 128-column arrays laid side by side, read at row p: the four rows appended. -/
theorem cat4_apply (a b c d : FVec Ideal S2000x128 .f32) (p : Fin 2000) :
    (fun k : Fin 512 => concatenate S2000x512 1 [⟨S2000x128, a⟩, ⟨S2000x128, b⟩, ⟨S2000x128, c⟩, ⟨S2000x128, d⟩]
        concatenates_S2000x128_S2000x128_S2000x128_S2000x128_S2000x512_d1 (ix2 p k))
      = Fin.append (Fin.append (Fin.append (fun i => a (ix2 p i)) (fun i => b (ix2 p i))) (fun i => c (ix2 p i)))
          (fun i => d (ix2 p i)) := by
  refine append_ext (m := 128 + 128 + 128) (n := 128) _ _ _ (fun i => ?_)
    (fun i => concat1_piece _ _ 3 (by simp) 128 d rfl 384 rfl p i _ rfl)
  refine congrFun (append_ext (m := 128 + 128) (n := 128) (fun i => concatenate S2000x512 1 _ _ (ix2 p (Fin.castAdd 128 i))) _ _
    (fun i => ?_) (fun i => concat1_piece _ _ 2 (by simp) 128 c rfl 256 rfl p i _ rfl)) i
  exact congrFun (append_ext (m := 128) (n := 128)
    (fun i => concatenate S2000x512 1 _ _ (ix2 p (Fin.castAdd 128 (Fin.castAdd 128 i)))) _ _
    (fun i => concat1_piece _ _ 0 (by simp) 128 a rfl 0 rfl p i _ (Nat.zero_add _).symm)
    (fun i => concat1_piece _ _ 1 (by simp) 128 b rfl 128 rfl p i _ rfl)) i

/-- Four-block concatenations agree when their blocks do. -/
theorem append4_congr {α : Type} {a a' b b' c c' d d' : Fin 128 → α} (ha : a = a') (hb : b = b') (hc : c = c')
    (hd : d = d') :
    Fin.append (Fin.append (Fin.append a b) c) d = Fin.append (Fin.append (Fin.append a' b') c') d' := by
  subst ha hb hc hd; rfl

/-- The gated 512-wide payload, read at row p: the row hsetR of row p's encoder output. -/
theorem pay5_apply (x0 : Vec Ideal S2000x88 .f32) (x1 : Vec Ideal S2000x168 .f32) (w1 : Vec Ideal S256x256 .bf16)
    (b1 : Vec Ideal S1x256 .f32) (w2 : Vec Ideal S256x256 .bf16) (p : Fin 2000) (c : Fin 512) :
    k0_pay5 (F := Ideal) x0 x1 w1 b1 w2 (ix2 p c)
      = hsetR (avR (mat w1) (mat b1 0) (mat x0 p) (mat x1 p)) (mat w2) c := by
  unfold k0_pay5
  rw [truncf_apply]
  refine (congrFun (cat4_apply _ _ _ _ p) c).trans ?_
  unfold hsetR
  refine congrFun (append4_congr ?_ ?_ ?_ ?_) c
  · funext i
    show Ideal.tanh (k0_pay3 (F := Ideal) x0 x1 w1 b1 (ix2 p i) * _) = _
    rw [pay3_apply, slice2_axis1_apply 0 _ _ p i (Fin.castAdd 128 i) (Nat.zero_add _).symm, atvt_apply]
  · exact funext fun i => pay3_apply x0 x1 w1 b1 p i
  · funext i
    show Ideal.tanh (k0_pay4 (F := Ideal) x0 x1 w1 b1 (ix2 p i) * _) = _
    rw [pay4_apply, slice2_axis1_apply 128 _ _ p i (Fin.natAdd 128 i) rfl, atvt_apply]
  · exact funext fun i => pay4_apply x0 x1 w1 b1 p i

/-- A dense layer as the program writes it — the operand narrowed, times the [in, out] weights into the zero
    accumulator, plus the one-row bias broadcast down the rows — read at (p, j), given row p of the operand. -/
theorem dense_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, K]⟩ .f32) (hlt : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbb : (⟨2, ![1, N]⟩ : Shape).Broadcasts ⟨2, ![M, N]⟩)
    (p : Fin M) (row : Row K) (hrow : ∀ k, x (ix2 p k) = row k) (j : Fin N) :
    addf (matmul d none (truncf .bf16 x hlt) (shapeCast ⟨2, ![K, N]⟩ w hw : FVec Ideal ⟨2, ![K, N]⟩ .bf16)
          (constant ⟨2, ![M, N]⟩ .f32 0x00000000#32))
        (broadcastTo ⟨2, ![M, N]⟩ (shapeCast ⟨2, ![1, N]⟩ b hb) hbb) (ix2 p j)
      = linT (mat w) (mat b 0) row j := by
  rw [addf_apply, broadcastTo_1b_ab_apply, shapeCast_id_apply, matmul0_apply d hlc hrc hln hrn hlb hrb]
  refine congrArg₂ (· + ·) (Finset.sum_congr rfl fun k _ => ?_) rfl
  rw [truncf_apply, shapeCast_id_apply, hrow]
  rfl

/-- Arrays of 64, 128 and 128 columns laid side by side, read at row p: the three rows appended. -/
theorem cat3_apply (a : FVec Ideal S2000x64 .f32) (b c : FVec Ideal S2000x128 .f32) (p : Fin 2000) :
    (fun k : Fin 320 => concatenate S2000x320 1 [⟨S2000x64, a⟩, ⟨S2000x128, b⟩, ⟨S2000x128, c⟩]
        concatenates_S2000x64_S2000x128_S2000x128_S2000x320_d1 (ix2 p k))
      = Fin.append (Fin.append (fun i => a (ix2 p i)) (fun i => b (ix2 p i))) (fun i => c (ix2 p i)) := by
  refine append_ext (m := 64 + 128) (n := 128) _ _ _ (fun i => ?_)
    (fun i => concat1_piece _ _ 2 (by simp) 128 c rfl 192 rfl p i _ rfl)
  exact congrFun (append_ext (m := 64) (n := 128)
    (fun i => concatenate S2000x320 1 _ _ (ix2 p (Fin.castAdd 128 i))) _ _
    (fun i => concat1_piece _ _ 0 (by simp) 64 a rfl 0 rfl p i _ (Nat.zero_add _).symm)
    (fun i => concat1_piece _ _ 1 (by simp) 128 b rfl 64 rfl p i _ rfl)) i

/-- The last payload at row p, given row p of the three arrays it reads: the tail outR of the packed network. -/
theorem pay1_apply (v27 v28 : FVec Ideal S2000x128 .f32) (v40 : FVec Ideal S2000x512 .bf16)
    (w3 : Vec Ideal S512x64 .bf16) (w4 : Vec Ideal S320x16 .bf16) (b4 : Vec Ideal S1x16 .f32)
    (r1 : Vec Ideal S16x128 .bf16) (r1b : Vec Ideal S1x128 .f32) (r2 : Vec Ideal S1x128 .f32)
    (r2b : Vec Ideal S1x1 .f32) (p : Fin 2000) (aud vis : Row 128) (hset : Row 512)
    (h27 : ∀ j, v27 (ix2 p j) = aud j) (h28 : ∀ j, v28 (ix2 p j) = vis j) (h40 : ∀ k, v40 (ix2 p k) = hset k) :
    k0_pay1 (F := Ideal) v27 v28 v40 w3 w4 b4 r1 r1b r2 r2b (ix2 p 0)
      = outR hset aud vis (mat w3) (mat w4) (mat b4 0) (mat r1) (mat r1b 0) (mat r2 0) (r2b (ix2 0 0)) := by
  unfold k0_pay1
  rw [addf_apply, shapeCast_a_a1_apply]
  refine (congrArg₂ (· + ·) (rowSum_apply _ _ _ _ p) (broadcastTo_1b_ab_apply _ _ p 0)).trans ?_
  rw [shapeCast_id_apply]
  unfold outR
  refine congrArg₂ (· + ·) (Finset.sum_congr rfl fun l _ => ?_) rfl
  rw [mulf_apply, broadcastTo_1b_ab_apply]
  refine congrArg₂ (· * ·) ?_ rfl
  refine dense_apply _ rfl rfl rfl rfl rfl rfl _ _ _ _ _ _ _ p _ (fun k => ?_) l
  refine dense_apply _ rfl rfl rfl rfl rfl rfl _ _ _ _ _ _ _ p _ (fun j => ?_) k
  refine (congrFun (cat3_apply _ _ _ p) j).trans ?_
  unfold cat2R
  refine congrFun (congrArg₂ (Fin.append (m := 64 + 128) (n := 128))
    (congrArg₂ (Fin.append (m := 64) (n := 128)) ?_ (funext h27)) (funext h28)) j
  funext i
  unfold hR
  rw [maximumf_apply, broadcast_apply, matmul0_apply _ rfl rfl rfl rfl rfl rfl]
  show max _ (Ideal.ofBits .f32 0x00000000#32) = _
  rw [Ideal.ofBits_zero_f32]
  refine congrArg (max · 0) (Finset.sum_congr rfl fun k _ => ?_)
  rw [shapeCast_id_apply, h40]
  rfl

/-- The packed network, written through the row functions above. -/
theorem kerRow_eq (Q : Packed) (x1 : Row 88) (x2 : Row 168) :
    kerRow Q x1 x2
      = outR (hsetR (avR Q.W1 Q.b1 x1 x2) Q.W2) (audR (avR Q.W1 Q.b1 x1 x2)) (visR (avR Q.W1 Q.b1 x1 x2))
          Q.W3 Q.W4 Q.b4 Q.r1T Q.r1b Q.r2 Q.r2b := rfl

/-- THE BODY'S RESULT AT A ROW. The array the body stores, computed from the loaded blocks, read at row p
    (its one column), is the packed network kerRow on row p of the two feature blocks, the packed weights being the
    loaded weight blocks read as tables and rows. -/
theorem pay_apply (x0 : Vec Ideal S2000x88 .f32) (x1 : Vec Ideal S2000x168 .f32) (w1 : Vec Ideal S256x256 .bf16)
    (b1 : Vec Ideal S1x256 .f32) (w2 : Vec Ideal S256x256 .bf16) (w3 : Vec Ideal S512x64 .bf16)
    (w4 : Vec Ideal S320x16 .bf16) (b4 : Vec Ideal S1x16 .f32) (r1 : Vec Ideal S16x128 .bf16)
    (r1b : Vec Ideal S1x128 .f32) (r2 : Vec Ideal S1x128 .f32) (r2b : Vec Ideal S1x1 .f32) (p : Fin 2000) :
    k0_pay1 (F := Ideal) (k0_pay3 x0 x1 w1 b1) (k0_pay4 x0 x1 w1 b1) (k0_pay5 x0 x1 w1 b1 w2) w3 w4 b4 r1 r1b r2 r2b
        (ix2 p 0)
      = kerRow ⟨mat w1, mat b1 0, mat w2, mat w3, mat w4, mat b4 0, mat r1, mat r1b 0, mat r2 0, r2b (ix2 0 0)⟩
          (mat x0 p) (mat x1 p) := by
  rw [kerRow_eq]
  exact pay1_apply _ _ _ w3 w4 b4 r1 r1b r2 r2b p _ _ _ (pay3_apply x0 x1 w1 b1 p) (pay4_apply x0 x1 w1 b1 p)
    (pay5_apply x0 x1 w1 b1 w2 p)

end Cert.KernelIdeal.BodyValue

end
-- ==== Proof.KernelIdealRun.lean ====
/-
  What the kernel's run leaves in its result array, as one function of the launch memory.

  The launch covers the 500000 result rows with 250 blocks of 2000; point t writes back block t, and what it
  writes at row p of the block is the packed row function of row t·2000 + p of the two feature arrays and of the
  ten weight tables, which never move.  So the result array ends as that row function of each row, and the
  arguments end unchanged.
-/
import proofs.«153533_j58291296141385_2_alg».proof.Proof.KernelIdealFrame
import proofs.«153533_j58291296141385_2_alg».proof.Proof.RowSpec
import proofs.«153533_j58291296141385_2_alg».proof.Proof.KerRow
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Frame Idealize.ShloMosaic Idealize.ShloMosaic.TcCoe Idealize.SL.Sem
open Idealize.ShloMosaic.Pipeline (Dat)
open Idealize.ShloMosaic.ValueIdx

open Cert.KernelIdeal.BodyValue (pay_apply)

variable (m : (ℓ : Loc nD τ sig) → Buf (Elt Ideal) ℓ) (ρ : Dev nD → PrngReg)

/-- The packed weight tables as the launch finds them. -/
def Q (c : Dev nD) : RowOps.Packed :=
  ⟨RowOps.mat (V m c main_v7 : S256x256.Idx → EReal), RowOps.mat (V m c main_v9 : S1x256.Idx → EReal) 0,
   RowOps.mat (V m c main_v17 : S256x256.Idx → EReal), RowOps.mat (V m c main_v28 : S512x64.Idx → EReal),
   RowOps.mat (V m c main_v41 : S320x16.Idx → EReal), RowOps.mat (V m c main_v43 : S1x16.Idx → EReal) 0,
   RowOps.mat (V m c main_v45 : S16x128.Idx → EReal), RowOps.mat (V m c main_v46 : S1x128.Idx → EReal) 0,
   RowOps.mat (V m c main_arg20 : S1x128.Idx → EReal) 0, (V m c main_v47 : S1x1.Idx → EReal) (ix2 0 0)⟩

/-- The result array the run leaves: at row `r` the packed row function of row `r` of the two feature arrays. -/
def G (c : Dev nD) : S500000x1.Idx → EReal := fun i =>
  RowOps.kerRow (Q m c) (RowOps.mat (V m c main_arg0 : S500000x88.Idx → EReal) (i 0)) (RowOps.mat (V m c main_arg1 : S500000x168.Idx → EReal) (i 0))

theorem hz : (![0, 0] : Fin 2 → Nat) = fun _ => 0 := funext fun a => by fin_cases a <;> rfl

/-- The index maps over the grid: the two feature windows move with the result window down the rows, and the ten
    weight windows stay at block zero. -/
theorem idx_facts : ∀ t : Fin cfg0.N,
    win0_0.index t (0 : Fin 2) = win0_12.index t (0 : Fin 2) ∧ win0_0.index t (1 : Fin 2) = 0
    ∧ win0_1.index t (0 : Fin 2) = win0_12.index t (0 : Fin 2) ∧ win0_1.index t (1 : Fin 2) = 0
    ∧ win0_12.index t (0 : Fin 2) = t.val ∧ win0_12.index t (1 : Fin 2) = 0 :=
  (by decide +kernel : ∀ t : Fin grid0.N, _)
theorem idx_still : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Weight window 2's block at any point is its whole array: its block index never leaves zero. -/
theorem iblk_still2 (c : Dev nD) (t : Fin cfg0.N) : (iblk m c 2 t : S256x256.Idx → EReal) = V m c main_v7 := by
  funext y
  show (V m c main_v7 : S256x256.Idx → EReal) (((cfg0.win 2).blk t).view.emb y) = _
  refine congrArg (V m c main_v7 : S256x256.Idx → EReal) (funext fun a => Fin.ext ?_)
  obtain ⟨a2, b2, a3, b3, a4, b4, a5, b5, a6, b6, a7, b7, a8, b8, a9, b9, a10, b10, a11, b11⟩ := idx_still t
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- Weight window 3's block at any point is its whole array: its block index never leaves zero. -/
theorem iblk_still3 (c : Dev nD) (t : Fin cfg0.N) : (iblk m c 3 t : S1x256.Idx → EReal) = V m c main_v9 := by
  funext y
  show (V m c main_v9 : S1x256.Idx → EReal) (((cfg0.win 3).blk t).view.emb y) = _
  refine congrArg (V m c main_v9 : S1x256.Idx → EReal) (funext fun a => Fin.ext ?_)
  obtain ⟨a2, b2, a3, b3, a4, b4, a5, b5, a6, b6, a7, b7, a8, b8, a9, b9, a10, b10, a11, b11⟩ := idx_still t
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Weight window 4's block at any point is its whole array: its block index never leaves zero. -/
theorem iblk_still4 (c : Dev nD) (t : Fin cfg0.N) : (iblk m c 4 t : S256x256.Idx → EReal) = V m c main_v17 := by
  funext y
  show (V m c main_v17 : S256x256.Idx → EReal) (((cfg0.win 4).blk t).view.emb y) = _
  refine congrArg (V m c main_v17 : S256x256.Idx → EReal) (funext fun a => Fin.ext ?_)
  obtain ⟨a2, b2, a3, b3, a4, b4, a5, b5, a6, b6, a7, b7, a8, b8, a9, b9, a10, b10, a11, b11⟩ := idx_still t
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- Weight window 5's block at any point is its whole array: its block index never leaves zero. -/
theorem iblk_still5 (c : Dev nD) (t : Fin cfg0.N) : (iblk m c 5 t : S512x64.Idx → EReal) = V m c main_v28 := by
  funext y
  show (V m c main_v28 : S512x64.Idx → EReal) (((cfg0.win 5).blk t).view.emb y) = _
  refine congrArg (V m c main_v28 : S512x64.Idx → EReal) (funext fun a => Fin.ext ?_)
  obtain ⟨a2, b2, a3, b3, a4, b4, a5, b5, a6, b6, a7, b7, a8, b8, a9, b9, a10, b10, a11, b11⟩ := idx_still t
  match a with
  | ⟨0, _⟩ => show win0_5.index t (0 : Fin 2) * 512 + 1 * (y 0).val = (y 0).val; omega
  | ⟨1, _⟩ => show win0_5.index t (1 : Fin 2) * 64 + 1 * (y 1).val = (y 1).val; omega

/-- Weight window 6's block at any point is its whole array: its block index never leaves zero. -/
theorem iblk_still6 (c : Dev nD) (t : Fin cfg0.N) : (iblk m c 6 t : S320x16.Idx → EReal) = V m c main_v41 := by
  funext y
  show (V m c main_v41 : S320x16.Idx → EReal) (((cfg0.win 6).blk t).view.emb y) = _
  refine congrArg (V m c main_v41 : S320x16.Idx → EReal) (funext fun a => Fin.ext ?_)
  obtain ⟨a2, b2, a3, b3, a4, b4, a5, b5, a6, b6, a7, b7, a8, b8, a9, b9, a10, b10, a11, b11⟩ := idx_still t
  match a with
  | ⟨0, _⟩ => show win0_6.index t (0 : Fin 2) * 320 + 1 * (y 0).val = (y 0).val; omega
  | ⟨1, _⟩ => show win0_6.index t (1 : Fin 2) * 16 + 1 * (y 1).val = (y 1).val; omega

/-- Weight window 7's block at any point is its whole array: its block index never leaves zero. -/
theorem iblk_still7 (c : Dev nD) (t : Fin cfg0.N) : (iblk m c 7 t : S1x16.Idx → EReal) = V m c main_v43 := by
  funext y
  show (V m c main_v43 : S1x16.Idx → EReal) (((cfg0.win 7).blk t).view.emb y) = _
  refine congrArg (V m c main_v43 : S1x16.Idx → EReal) (funext fun a => Fin.ext ?_)
  obtain ⟨a2, b2, a3, b3, a4, b4, a5, b5, a6, b6, a7, b7, a8, b8, a9, b9, a10, b10, a11, b11⟩ := idx_still t
  match a with
  | ⟨0, _⟩ => show win0_7.index t (0 : Fin 2) * 1 + 1 * (y 0).val = (y 0).val; omega
  | ⟨1, _⟩ => show win0_7.index t (1 : Fin 2) * 16 + 1 * (y 1).val = (y 1).val; omega

/-- Weight window 8's block at any point is its whole array: its block index never leaves zero. -/
theorem iblk_still8 (c : Dev nD) (t : Fin cfg0.N) : (iblk m c 8 t : S16x128.Idx → EReal) = V m c main_v45 := by
  funext y
  show (V m c main_v45 : S16x128.Idx → EReal) (((cfg0.win 8).blk t).view.emb y) = _
  refine congrArg (V m c main_v45 : S16x128.Idx → EReal) (funext fun a => Fin.ext ?_)
  obtain ⟨a2, b2, a3, b3, a4, b4, a5, b5, a6, b6, a7, b7, a8, b8, a9, b9, a10, b10, a11, b11⟩ := idx_still t
  match a with
  | ⟨0, _⟩ => show win0_8.index t (0 : Fin 2) * 16 + 1 * (y 0).val = (y 0).val; omega
  | ⟨1, _⟩ => show win0_8.index t (1 : Fin 2) * 128 + 1 * (y 1).val = (y 1).val; omega

/-- Weight window 9's block at any point is its whole array: its block index never leaves zero. -/
theorem iblk_still9 (c : Dev nD) (t : Fin cfg0.N) : (iblk m c 9 t : S1x128.Idx → EReal) = V m c main_v46 := by
  funext y
  show (V m c main_v46 : S1x128.Idx → EReal) (((cfg0.win 9).blk t).view.emb y) = _
  refine congrArg (V m c main_v46 : S1x128.Idx → EReal) (funext fun a => Fin.ext ?_)
  obtain ⟨a2, b2, a3, b3, a4, b4, a5, b5, a6, b6, a7, b7, a8, b8, a9, b9, a10, b10, a11, b11⟩ := idx_still t
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Weight window 10's block at any point is its whole array: its block index never leaves zero. -/
theorem iblk_still10 (c : Dev nD) (t : Fin cfg0.N) : (iblk m c 10 t : S1x128.Idx → EReal) = V m c main_arg20 := by
  funext y
  show (V m c main_arg20 : S1x128.Idx → EReal) (((cfg0.win 10).blk t).view.emb y) = _
  refine congrArg (V m c main_arg20 : S1x128.Idx → EReal) (funext fun a => Fin.ext ?_)
  obtain ⟨a2, b2, a3, b3, a4, b4, a5, b5, a6, b6, a7, b7, a8, b8, a9, b9, a10, b10, a11, b11⟩ := idx_still t
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Weight window 11's block at any point is its whole array: its block index never leaves zero. -/
theorem iblk_still11 (c : Dev nD) (t : Fin cfg0.N) : (iblk m c 11 t : S1x1.Idx → EReal) = V m c main_v47 := by
  funext y
  show (V m c main_v47 : S1x1.Idx → EReal) (((cfg0.win 11).blk t).view.emb y) = _
  refine congrArg (V m c main_v47 : S1x1.Idx → EReal) (funext fun a => Fin.ext ?_)
  obtain ⟨a2, b2, a3, b3, a4, b4, a5, b5, a6, b6, a7, b7, a8, b8, a9, b9, a10, b10, a11, b11⟩ := idx_still t
  match a with
  | ⟨0, _⟩ => show win0_11.index t (0 : Fin 2) * 1 + 1 * (y 0).val = (y 0).val; omega
  | ⟨1, _⟩ => show win0_11.index t (1 : Fin 2) * 1 + 1 * (y 1).val = (y 1).val; omega

/-- Row `p` of a feature window's block at point `t` is the row of the feature array that the result window's block
    puts at its row `p`. -/
theorem row0 (c : Dev nD) (t : Fin cfg0.N) (p : Fin 2000) :
    RowOps.mat (iblk m c 0 t : S2000x88.Idx → EReal) p
      = RowOps.mat (V m c main_arg0 : S500000x88.Idx → EReal) ((((cfg0.win 12).blk t).view.emb (ix2 p (0 : Fin 1)) : S500000x1.Idx) 0) := by
  funext k
  show (V m c main_arg0 : S500000x88.Idx → EReal) (((cfg0.win 0).blk t).view.emb (ix2 p k)) = (V m c main_arg0 : S500000x88.Idx → EReal) (ix2 _ k)
  refine congrArg (V m c main_arg0 : S500000x88.Idx → EReal) (funext fun a => Fin.ext ?_)
  obtain ⟨e0, e1, e2, e3, e4, e5⟩ := idx_facts t
  match a with
  | ⟨0, _⟩ => show win0_0.index t (0 : Fin 2) * 2000 + 1 * p.val = win0_12.index t (0 : Fin 2) * 2000 + 1 * p.val; omega
  | ⟨1, _⟩ => show win0_0.index t (1 : Fin 2) * 88 + 1 * k.val = k.val; omega
theorem row1 (c : Dev nD) (t : Fin cfg0.N) (p : Fin 2000) :
    RowOps.mat (iblk m c 1 t : S2000x168.Idx → EReal) p
      = RowOps.mat (V m c main_arg1 : S500000x168.Idx → EReal) ((((cfg0.win 12).blk t).view.emb (ix2 p (0 : Fin 1)) : S500000x1.Idx) 0) := by
  funext k
  show (V m c main_arg1 : S500000x168.Idx → EReal) (((cfg0.win 1).blk t).view.emb (ix2 p k)) = (V m c main_arg1 : S500000x168.Idx → EReal) (ix2 _ k)
  refine congrArg (V m c main_arg1 : S500000x168.Idx → EReal) (funext fun a => Fin.ext ?_)
  obtain ⟨e0, e1, e2, e3, e4, e5⟩ := idx_facts t
  match a with
  | ⟨0, _⟩ => show win0_1.index t (0 : Fin 2) * 2000 + 1 * p.val = win0_12.index t (0 : Fin 2) * 2000 + 1 * p.val; omega
  | ⟨1, _⟩ => show win0_1.index t (1 : Fin 2) * 168 + 1 * k.val = k.val; omega

/-- The weight blocks at any point are the packed tables. -/
theorem Q_eq (c : Dev nD) (t : Fin cfg0.N) :
    (⟨RowOps.mat (iblk m c 2 t : S256x256.Idx → EReal), RowOps.mat (iblk m c 3 t : S1x256.Idx → EReal) 0,
      RowOps.mat (iblk m c 4 t : S256x256.Idx → EReal), RowOps.mat (iblk m c 5 t : S512x64.Idx → EReal),
      RowOps.mat (iblk m c 6 t : S320x16.Idx → EReal), RowOps.mat (iblk m c 7 t : S1x16.Idx → EReal) 0,
      RowOps.mat (iblk m c 8 t : S16x128.Idx → EReal), RowOps.mat (iblk m c 9 t : S1x128.Idx → EReal) 0,
      RowOps.mat (iblk m c 10 t : S1x128.Idx → EReal) 0, (iblk m c 11 t : S1x1.Idx → EReal) (ix2 0 0)⟩ : RowOps.Packed) = Q m c := by
  unfold Q
  rw [iblk_still2 m c t, iblk_still3 m c t, iblk_still4 m c t, iblk_still5 m c t, iblk_still6 m c t, iblk_still7 m c t, iblk_still8 m c t, iblk_still9 m c t, iblk_still10 m c t, iblk_still11 m c t]

/-- What point `t` writes back is block `t` of `G`. -/
theorem flushed_eq (c : Dev nD) (t : Fin cfg0.N) :
    (dats m 0 c).flushed 12 t = ((cfg0.win 12).blk t).view.read (Elt Ideal) (G m c) := by
  show (cfg0.win 12).cut (grid0.coords t) ((dats m 0 c).after 12 t) = _
  rw [after0_12]
  unfold out0_12
  rw [View.canon_unit_zero hz]
  simp only [View.ld_unit_zero (S := S2000x88) hz, View.ld_unit_zero (S := S2000x168) hz, View.ld_unit_zero (S := S256x256) hz, View.ld_unit_zero (S := S1x256) hz, View.ld_unit_zero (S := S512x64) hz, View.ld_unit_zero (S := S320x16) hz, View.ld_unit_zero (S := S1x16) hz, View.ld_unit_zero (S := S16x128) hz, View.ld_unit_zero (S := S1x128) hz, View.ld_unit_zero (S := S1x1) hz]
  funext j
  obtain ⟨p, q, rfl⟩ : ∃ (p : Fin 2000) (q : Fin 1), j = ix2 p q := ⟨j 0, j 1, eq_ix2 j⟩
  obtain rfl : q = 0 := Subsingleton.elim _ _
  refine (pay_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p).trans ?_
  show _ = RowOps.kerRow (Q m c) _ _
  rw [Q_eq m c t, row0 m c t p, row1 m c t p]

/-- An index of the result array is in point `t`'s block iff its row is among the block's 2000. -/
theorem mem_blk (t : Fin cfg0.N) (i : S500000x1.Idx) :
    i ∈ ((cfg0.win 12).blk t).view.set ↔ ∀ a : Fin 2, win0_12.index t a * S2000x1.size a ≤ (i a).val ∧ (i a).val < win0_12.index t a * S2000x1.size a + S2000x1.size a := by
  show i ∈ ((View.whole main_v48).slice (win0_12.rect t)).set ↔ _
  rw [View.set_slice_whole, Rect.mem_set_unit]
  exact Iff.rfl

/-- Every row of the result is in the block of the point `row / 2000`. -/
theorem cover (i : S500000x1.Idx) : ∃ t : Fin cfg0.N, (cfg0.win 12).flush t = true ∧ i ∈ ((cfg0.win 12).blk t).view.set := by
  have hi0 : (i 0).val < 500000 := (i 0).isLt
  have hi1 : (i 1).val < 1 := (i 1).isLt
  have hN : (i 0).val / 2000 < cfg0.N := by show _ < grid0.N; rw [N_0]; omega
  refine ⟨⟨(i 0).val / 2000, hN⟩, flush0_12 _, ?_⟩
  rw [mem_blk]
  obtain ⟨e0, e1, e2, e3, e4, e5⟩ := idx_facts ⟨(i 0).val / 2000, hN⟩
  intro a
  match a with
  | ⟨0, _⟩ => show win0_12.index _ (0 : Fin 2) * 2000 ≤ (i 0).val ∧ (i 0).val < win0_12.index _ (0 : Fin 2) * 2000 + 2000; rw [e4]; show (i 0).val / 2000 * 2000 ≤ _ ∧ _ < (i 0).val / 2000 * 2000 + 2000; omega
  | ⟨1, _⟩ => show win0_12.index _ (1 : Fin 2) * 1 ≤ (i 1).val ∧ (i 1).val < win0_12.index _ (1 : Fin 2) * 1 + 1; rw [e5]; omega

/-- The result array after the run is `G`. -/
theorem final (c : Dev nD) : (dats m 0 c).arrAt 12 cfg0.N = G m c :=
  (dats m 0 c).arrAt_eq_of_cover 12 (G m c) (fun t _ => flushed_eq m c t) cover

/-- After the frame run the result array is window 12's. -/
theorem post12 (r : PUnit × MemSt nD τ sig (Elt Ideal)) (h : Pipeline.FramePost cfgs (dats m) 0 (V m) r) (c : Dev nD) :
    r.2.mem ((c : Thread nD τ).loc main_v48) = (dats m 0 c).arrAt 12 cfg0.N :=
  (h c).1 12

/-- The kernel's run: it ends with the result array at `G`, and whatever the frame says of the arguments. -/
theorem run_result : θ_run defs (onTc (τ := τ) (main (F := Ideal))) ⟨m, fun _ => 0, ρ⟩ fun r => ∀ c : Dev nD,
      r.2.mem ((c : Thread nD τ).loc main_v48) = G m c :=
  (θ_run defs _ _).mono (fun r h c => (post12 m r h c).trans (final m c)) (run_main m ρ)

/-- The kernel's run: every weakly fair execution ends with the result array at `G` and the arguments unchanged. -/
theorem run : θ_run defs (onTc (τ := τ) (main (F := Ideal))) ⟨m, fun _ => 0, ρ⟩ fun r => ∀ c : Dev nD,
      r.2.mem ((c.tc : Thread nD τ).loc main_v48) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun r h c => ⟨(post12 m r h c).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).1 10).trans (((dats m 0 c).arrAt_in 10 rfl _).trans ((A_eq m c 10).trans (V_main_arg20 m c))),
      ((h c).2 main_arg21 (Pipeline.mem_restRefs_of main_arg21 (by decide) (by decide))).trans (V_main_arg21 m c)⟩) (run_main m ρ)

end Cert.KernelIdeal.RunValue
end
-- ==== Proof.HostPack.lean ====
/-
  The packed weights the kernel's launch builds are `pack` of the twenty weight arrays.

  Before its one fused region the kernel's entry function runs a straight line of layout operations on the weight
  arrays: transposes, zero tables (the zero word broadcast), joins along the first or the second axis, one
  multiplication by the broadcast word `0x3D800000`, narrowings to the shorter float format, and reshapes of rows
  to one-row tables.  Over the extended reals every one of these is exact, and each of them, read as a table
  `Fin r → Fin c → EReal`, is one of the table operations of `RowOps`:

  * a transpose is `tr`;
  * the broadcast zero word is `zeroMat`;
  * a join along the second axis is `hcat`, along the first axis `vcat` (three pieces: `vcat (vcat · ·) ·`);
  * the product with the broadcast word is the entrywise product with `c16inv` (the same word, never evaluated);
  * a narrowing is the identity;
  * a row reshaped to a one-row table has that row as row `0`.

  The first part proves these readings over arbitrary arrays; the second part computes what each packed operand
  holds when the region is entered and reads it off with them, which gives the nine fields of `pack`.
-/
import proofs.«153533_j58291296141385_2_alg».proof.Proof.Gen.KernelIdeal.Launch
import proofs.«153533_j58291296141385_2_alg».proof.Proof.RowSpec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostPack

open Idealize.ShloMosaic Idealize.ShloMosaic.TcCoe
open Idealize.SL.Sem
open Cert.KernelIdeal Cert.KernelIdeal.Gen
open Idealize.ShloMosaic.ValueIdx
open RowOps

/-! ## Layout operations read as tables -/
/-- A transposed array read as a table is the table transposed. -/
theorem mat_transpose {a b : ℕ} (x : (⟨2, ![a, b]⟩ : Shape).Idx → EReal)
    (h : (⟨2, ![a, b]⟩ : Shape).Transposes [1, 0] ⟨2, ![b, a]⟩) :
    mat (transpose ⟨2, ![b, a]⟩ [1, 0] x h) = tr (mat x) := by
  funext j i
  exact transpose_ix2_apply x h j i

/-- The zero word broadcast to a table is the table of zeros. -/
theorem mat_zero {r c : ℕ} (h : (⟨0, ![]⟩ : Shape).BroadcastsInDim ⟨2, ![r, c]⟩ (![] : Fin 0 → Fin 2)) :
    mat (broadcastInDim ⟨2, ![r, c]⟩ ![] h (constant (F := Ideal) ⟨0, ![]⟩ .f32 0x00000000#32)) = zeroMat r c := by
  funext i j
  show Ideal.ofBits .f32 0x00000000#32 = 0
  exact Ideal.ofBits_zero_f32

/-- Two arrays joined along the second axis, read as a table, are the two tables side by side. -/
theorem mat_concat1 {r a b : ℕ} (x : (⟨2, ![r, a]⟩ : Shape).Idx → EReal) (y : (⟨2, ![r, b]⟩ : Shape).Idx → EReal)
    (h : Shape.Concatenates [(⟨2, ![r, a]⟩ : Shape), ⟨2, ![r, b]⟩] ⟨2, ![r, a + b]⟩ 1) :
    mat (concatenate ⟨2, ![r, a + b]⟩ 1 [⟨⟨2, ![r, a]⟩, x⟩, ⟨⟨2, ![r, b]⟩, y⟩] h) = hcat (mat x) (mat y) := by
  funext i j
  induction j using Fin.addCases with
  | left j =>
    refine (concatenate_pair_apply_left 1 x y h (ix2 i (Fin.castAdd b j)) rfl (ix2 i j)
      (fun d => match d with | ⟨0, _⟩ => rfl | ⟨1, _⟩ => rfl)).trans ?_
    exact (Fin.append_left (mat x i) (mat y i) j).symm
  | right j =>
    refine (concatenate_pair_apply_right 1 x y h (ix2 i (Fin.natAdd a j)) rfl rfl (ix2 i j)
      (fun d hd => match d, hd with | ⟨0, _⟩, _ => rfl | ⟨1, _⟩, hd => absurd rfl hd)
      (by show j.val + a = a + j.val; omega)).trans ?_
    exact (Fin.append_right (mat x i) (mat y i) j).symm

/-- Two arrays joined along the first axis, read as a table, are the two tables one above the other. -/
theorem mat_concat0 {a b c : ℕ} (x : (⟨2, ![a, c]⟩ : Shape).Idx → EReal) (y : (⟨2, ![b, c]⟩ : Shape).Idx → EReal)
    (h : Shape.Concatenates [(⟨2, ![a, c]⟩ : Shape), ⟨2, ![b, c]⟩] ⟨2, ![a + b, c]⟩ 0) :
    mat (concatenate ⟨2, ![a + b, c]⟩ 0 [⟨⟨2, ![a, c]⟩, x⟩, ⟨⟨2, ![b, c]⟩, y⟩] h) = vcat (mat x) (mat y) := by
  funext i j
  induction i using Fin.addCases with
  | left i =>
    refine (concatenate_pair_apply_left 0 x y h (ix2 (Fin.castAdd b i) j) rfl (ix2 i j)
      (fun d => match d with | ⟨0, _⟩ => rfl | ⟨1, _⟩ => rfl)).trans ?_
    exact (congrFun (Fin.append_left (mat x) (mat y) i) j).symm
  | right i =>
    refine (concatenate_pair_apply_right 0 x y h (ix2 (Fin.natAdd a i) j) rfl rfl (ix2 i j)
      (fun d hd => match d, hd with | ⟨0, _⟩, hd => absurd rfl hd | ⟨1, _⟩, _ => rfl)
      (by show i.val + a = a + i.val; omega)).trans ?_
    exact (congrFun (Fin.append_right (mat x) (mat y) i) j).symm

/-- Narrowing to the shorter format changes no entry: every operation is exact. -/
theorem mat_truncf {r c : ℕ} (x : FVec Ideal ⟨2, ![r, c]⟩ .f32) (h : FTy.bits .bf16 < FTy.bits .f32) :
    mat (truncf .bf16 x h : FVec Ideal ⟨2, ![r, c]⟩ .bf16) = mat x := rfl

/-- An array multiplied entry by entry by the broadcast word `0x3D800000`, read as a table, is the table with every
    entry multiplied by `c16inv` (the same word, never evaluated). -/
theorem mat_mul_c16inv {r c : ℕ} (x : FVec Ideal ⟨2, ![r, c]⟩ .f32)
    (h : (⟨0, ![]⟩ : Shape).BroadcastsInDim ⟨2, ![r, c]⟩ (![] : Fin 0 → Fin 2)) :
    mat (mulf x (broadcastInDim ⟨2, ![r, c]⟩ ![] h (constant (F := Ideal) ⟨0, ![]⟩ .f32 0x3D800000#32)))
      = fun k j => mat x k j * c16inv := rfl

/-- Two rows joined end to end, read as a row, are the two rows appended. -/
theorem vec_concat {a b : ℕ} (x : (⟨1, ![a]⟩ : Shape).Idx → EReal) (y : (⟨1, ![b]⟩ : Shape).Idx → EReal)
    (h : Shape.Concatenates [(⟨1, ![a]⟩ : Shape), ⟨1, ![b]⟩] ⟨1, ![a + b]⟩ 0) :
    vec (concatenate ⟨1, ![a + b]⟩ 0 [⟨⟨1, ![a]⟩, x⟩, ⟨⟨1, ![b]⟩, y⟩] h) = Fin.append (vec x) (vec y) := by
  funext i
  induction i using Fin.addCases with
  | left i =>
    refine (concatenate_pair_apply_left 0 x y h (ix1 (Fin.castAdd b i)) rfl (ix1 i)
      (fun d => match d with | ⟨0, _⟩ => rfl)).trans ?_
    exact (Fin.append_left (vec x) (vec y) i).symm
  | right i =>
    refine (concatenate_pair_apply_right 0 x y h (ix1 (Fin.natAdd a i)) rfl rfl (ix1 i)
      (fun d hd => match d, hd with | ⟨0, _⟩, hd => absurd rfl hd)
      (by show i.val + a = a + i.val; omega)).trans ?_
    exact (Fin.append_right (vec x) (vec y) i).symm

/-- A row given a leading unit axis, read as a table, has that row as its only row. -/
theorem mat_reshape_row {n : ℕ} (x : (⟨1, ![n]⟩ : Shape).Idx → EReal) (h : (⟨1, ![n]⟩ : Shape).ShapeCasts ⟨2, ![1, n]⟩) :
    mat (shapeCast ⟨2, ![1, n]⟩ x h) 0 = vec x := by
  funext i
  exact shapeCast_a_1a_apply x h 0 i

/-- Three arrays joined along the first axis, read as a table, are the three tables stacked. -/
theorem mat_concat0_three {a b c n : ℕ} (x : (⟨2, ![a, n]⟩ : Shape).Idx → EReal) (y : (⟨2, ![b, n]⟩ : Shape).Idx → EReal)
    (z : (⟨2, ![c, n]⟩ : Shape).Idx → EReal)
    (h : Shape.Concatenates [(⟨2, ![a, n]⟩ : Shape), ⟨2, ![b, n]⟩, ⟨2, ![c, n]⟩] ⟨2, ![a + b + c, n]⟩ 0) :
    mat (concatenate ⟨2, ![a + b + c, n]⟩ 0 [⟨⟨2, ![a, n]⟩, x⟩, ⟨⟨2, ![b, n]⟩, y⟩, ⟨⟨2, ![c, n]⟩, z⟩] h)
      = vcat (vcat (mat x) (mat y)) (mat z) := by
  funext i j
  induction i using Fin.addCases with
  | left i =>
    induction i using Fin.addCases with
    | left i =>
      refine (concatenate_apply_piece (t := ⟨2, ![a + b + c, n]⟩) 0 [⟨⟨2, ![a, n]⟩, x⟩, ⟨⟨2, ![b, n]⟩, y⟩, ⟨⟨2, ![c, n]⟩, z⟩] h (ix2 (Fin.castAdd c (Fin.castAdd b i)) j) 0 (by simp) ⟨2, ![a, n]⟩ x rfl rfl 0 rfl (ix2 i j)
        (fun d hd => match d, hd with | ⟨0, _⟩, hd => absurd rfl hd | ⟨1, _⟩, _ => rfl)
        (by show 0 + i.val = i.val; omega)).trans ?_
      exact (congrFun ((Fin.append_left (vcat (mat x) (mat y)) (mat z) (Fin.castAdd b i)).trans
        (Fin.append_left (mat x) (mat y) i)) j).symm
    | right i =>
      refine (concatenate_apply_piece (t := ⟨2, ![a + b + c, n]⟩) 0 [⟨⟨2, ![a, n]⟩, x⟩, ⟨⟨2, ![b, n]⟩, y⟩, ⟨⟨2, ![c, n]⟩, z⟩] h (ix2 (Fin.castAdd c (Fin.natAdd a i)) j) 1 (by simp) ⟨2, ![b, n]⟩ y rfl rfl a (by simp) (ix2 i j)
        (fun d hd => match d, hd with | ⟨0, _⟩, hd => absurd rfl hd | ⟨1, _⟩, _ => rfl)
        (by show a + i.val = a + i.val; rfl)).trans ?_
      exact (congrFun ((Fin.append_left (vcat (mat x) (mat y)) (mat z) (Fin.natAdd a i)).trans
        (Fin.append_right (mat x) (mat y) i)) j).symm
  | right i =>
    refine (concatenate_apply_piece (t := ⟨2, ![a + b + c, n]⟩) 0 [⟨⟨2, ![a, n]⟩, x⟩, ⟨⟨2, ![b, n]⟩, y⟩, ⟨⟨2, ![c, n]⟩, z⟩] h (ix2 (Fin.natAdd (a + b) i) j) 2 (by simp) ⟨2, ![c, n]⟩ z rfl rfl (a + b) (by simp) (ix2 i j)
      (fun d hd => match d, hd with | ⟨0, _⟩, hd => absurd rfl hd | ⟨1, _⟩, _ => rfl)
      (by show a + b + i.val = a + b + i.val; rfl)).trans ?_
    exact (congrFun (Fin.append_right (vcat (mat x) (mat y)) (mat z) i) j).symm

/-! ## What the packed operands hold when the region is entered -/

/-- The core's buffers when the region is entered: the launch contents after the layout operations. -/
abbrev V (m : (ℓ : Loc nD τ sig) → Buf (Elt Ideal) ℓ) (c : Dev nD) (b : Ref sig .tc) : Buf (Elt Ideal) ((c : Thread nD τ).loc b) := StableHlo.after (hostOps0 (F := Ideal)) (fun b => m (c, b)) b

/-- The twenty weight arrays as launched, as `Params`. -/
abbrev params (m : (ℓ : Loc nD τ sig) → Buf (Elt Ideal) ℓ) (c : Dev nD) : RowOps.Params :=
  RowOps.paramsOf (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14)) (m ((c : Thread nD τ).loc main_arg15))
    (m ((c : Thread nD τ).loc main_arg16)) (m ((c : Thread nD τ).loc main_arg17))
    (m ((c : Thread nD τ).loc main_arg18)) (m ((c : Thread nD τ).loc main_arg19))
    (m ((c : Thread nD τ).loc main_arg20)) (m ((c : Thread nD τ).loc main_arg21))

variable (m : (ℓ : Loc nD τ sig) → Buf (Elt Ideal) ℓ) (c : Dev nD)

/-- One more round of reading the operations' results: at the buffer an operation writes, its value; at any other
    buffer, what was there before. -/
local macro "results_again" : tactic =>
  `(tactic| repeat (first
      | rw [StableHlo.nullary_result] | rw [StableHlo.unary_result] | rw [StableHlo.binary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide)))

/-- The first product's weights: the two encoders' tables transposed, on the diagonal of a `256 × 256` table. -/
theorem W1_eq : RowOps.mat (V m c main_v7) = (RowOps.pack (params m c)).W1 := by
  dsimp only [V, hostOps0]
  after_results
  simp only [mat_truncf, mat_concat0 (a := 88) (b := 168), mat_concat1 (a := 128) (b := 128)]
  rw [mat_transpose, mat_transpose, mat_zero, mat_zero]
  rfl

/-- The first product's bias: the two encoders' biases end to end. -/
theorem b1_eq : RowOps.mat (V m c main_v9) 0 = (RowOps.pack (params m c)).b1 := by
  dsimp only [V, hostOps0]
  after_results
  refine (mat_reshape_row _ shapeCasts_S256_S1x256).trans ?_
  exact vec_concat (a := 128) (b := 128) _ _ _

set_option maxHeartbeats 4000000 in
/-- The gate's weights: the two affine tables transposed and scaled by `1/16`, side by side. -/
theorem W2_eq : RowOps.mat (V m c main_v17) = (RowOps.pack (params m c)).W2 := by
  dsimp only [V, hostOps0]
  after_results
  simp only [mat_truncf, mat_concat1 (a := 128) (b := 128)]
  rw [mat_mul_c16inv, mat_mul_c16inv, mat_transpose, mat_transpose]
  rfl

set_option maxHeartbeats 4000000 in
/-- The mixing layers' weights: per modality the gated and the plain table transposed and stacked, the two
    modalities on the diagonal of a `512 × 64` table. -/
theorem W3_eq : RowOps.mat (V m c main_v28) = (RowOps.pack (params m c)).W3 := by
  dsimp only [V, hostOps0]
  after_results
  simp only [mat_truncf, mat_concat0 (a := 256) (b := 256), mat_concat1 (a := 32) (b := 32),
    mat_concat0 (a := 128) (b := 128)]
  rw [mat_transpose, mat_transpose, mat_transpose, mat_transpose, mat_zero]
  rfl

set_option maxHeartbeats 4000000 in
/-- The attention heads' weights: the two head tables on a diagonal, above the two skip tables each beside a zero
    table. -/
theorem W4_eq : RowOps.mat (V m c main_v41) = (RowOps.pack (params m c)).W4 := by
  dsimp only [V, hostOps0]
  after_results
  -- the three joined pieces are named through a finite family: read the family at its three literal positions,
  -- then go on computing what each piece holds
  dsimp only
  simp only [Matrix.cons_val_zero, Matrix.cons_val_one, Matrix.cons_val]
  results_again
  simp only [mat_truncf, mat_concat0_three (a := 64) (b := 128) (c := 128), mat_concat0 (a := 32) (b := 32),
    mat_concat1 (a := 8) (b := 8)]
  rw [mat_transpose, mat_transpose, mat_transpose, mat_transpose, mat_zero, mat_zero]
  rfl

/-- The attention heads' bias: the two skip biases end to end. -/
theorem b4_eq : RowOps.mat (V m c main_v43) 0 = (RowOps.pack (params m c)).b4 := by
  dsimp only [V, hostOps0]
  after_results_simp
  refine (mat_reshape_row _ shapeCasts_S16_S1x16).trans ?_
  exact vec_concat (a := 8) (b := 8) _ _ _

/-- The regressor's first table, transposed. -/
theorem r1T_eq : RowOps.mat (V m c main_v45) = (RowOps.pack (params m c)).r1T := by
  dsimp only [V, hostOps0]
  after_results_simp
  rw [mat_truncf, mat_transpose]
  rfl

/-- The regressor's first bias, as the one row of a one-row table. -/
theorem r1b_eq : RowOps.mat (V m c main_v46) 0 = (RowOps.pack (params m c)).r1b := by
  dsimp only [V, hostOps0]
  after_results
  exact mat_reshape_row _ shapeCasts_S128_S1x128

/-- The regressor's last bias, as the one entry of a `1 × 1` table. -/
theorem r2b_eq : V m c main_v47 (ValueIdx.ix2 0 0) = (RowOps.pack (params m c)).r2b := by
  dsimp only [V, hostOps0]
  after_results
  exact shapeCast_a_1a_apply _ shapeCasts_S1_S1x1 0 0

end Cert.KernelIdeal.HostPack
end
-- ==== Proof.RefRow.lean ====
/-
  The layer-by-layer program, read one row at a time.

  Every stage of the program is an array with 500000 rows, and row `r` of each stage depends only on row `r` of the
  two feature arrays and on the weights.  This module follows the program in order and identifies row `r` of each
  stage with a row of extended reals built from the vocabulary of the row specification:

  * a sum of squares along a row, its square root clamped below by the small literal, and the quotient by it — the
    row divided by its Euclidean norm (`RowOps.unit`);
  * a product with a transposed weight table `[out, in]` — for each output `j` the inner product of the row with
    row `j` of the table (`RowOps.dot`), the sum running over the contracted index;
  * a bias broadcast along the rows — the bias entry `j`;
  * two stages joined along the second axis — the two rows appended (`Fin.append`), read on the left part through
    `Fin.castAdd` and on the right part through `Fin.natAdd`;
  * the elementwise gate `tanh (x * y / 16)` and the rectifier `max x 0` — the same operations entrywise, the
    zero literal being the real `0`.

  The last stage has one column; its row `r` is `RowOps.refRow` of the weights and row `r` of the features.
-/
import proofs.«153533_j58291296141385_2_alg».proof.Proof.Gen.ReferenceIdeal.Read
import proofs.«153533_j58291296141385_2_alg».proof.Proof.RowSpec

noncomputable section

namespace Cert.ReferenceIdeal.RefValue

open Cert.ReferenceIdeal Cert.ReferenceIdeal.Gen Cert.ReferenceIdeal.Read Idealize.ShloMosaic Idealize.ShloMosaic.ValueIdx

/-- Two rank-2 indices are equal when their coordinates are. -/
macro "idx_eq" : tactic =>
  `(tactic| exact funext fun a => Fin.ext (by match a with | ⟨0, _⟩ => rfl | ⟨1, _⟩ => rfl))
/-- Two rank-1 indices are equal when their coordinate is. -/
macro "idx_eq1" : tactic =>
  `(tactic| exact funext fun a => Fin.ext (by match a with | ⟨0, _⟩ => rfl))

variable (a0 : (⟨S500000x88, .f32⟩ : BufTy).Contents (Elt Ideal)) (a1 : (⟨S500000x168, .f32⟩ : BufTy).Contents (Elt Ideal))
  (a2 : (⟨S128x88, .f32⟩ : BufTy).Contents (Elt Ideal)) (a3 : (⟨S128, .f32⟩ : BufTy).Contents (Elt Ideal))
  (a4 : (⟨S128x168, .f32⟩ : BufTy).Contents (Elt Ideal)) (a5 : (⟨S128, .f32⟩ : BufTy).Contents (Elt Ideal))
  (a6 a7 : (⟨S128x256, .f32⟩ : BufTy).Contents (Elt Ideal))
  (a8 a9 a10 a11 : (⟨S32x128, .f32⟩ : BufTy).Contents (Elt Ideal))
  (a12 a13 : (⟨S8x32, .f32⟩ : BufTy).Contents (Elt Ideal))
  (a14 : (⟨S8x128, .f32⟩ : BufTy).Contents (Elt Ideal)) (a15 : (⟨S8, .f32⟩ : BufTy).Contents (Elt Ideal))
  (a16 : (⟨S8x128, .f32⟩ : BufTy).Contents (Elt Ideal)) (a17 : (⟨S8, .f32⟩ : BufTy).Contents (Elt Ideal))
  (a18 : (⟨S128x16, .f32⟩ : BufTy).Contents (Elt Ideal)) (a19 : (⟨S128, .f32⟩ : BufTy).Contents (Elt Ideal))
  (a20 : (⟨S1x128, .f32⟩ : BufTy).Contents (Elt Ideal)) (a21 : (⟨S1, .f32⟩ : BufTy).Contents (Elt Ideal))

/-! ## The rows of the intermediate stages -/

/-- Row `r` of the first encoder's result: the dense layer on the normalised first feature row. -/
def audRow (r : Fin 500000) : RowOps.Row 128 :=
  RowOps.lin (RowOps.mat a2) (RowOps.vec a3) (RowOps.unit (RowOps.mat a0 r))
/-- Row `r` of the second encoder's result. -/
def visRow (r : Fin 500000) : RowOps.Row 128 :=
  RowOps.lin (RowOps.mat a4) (RowOps.vec a5) (RowOps.unit (RowOps.mat a1 r))
/-- The two encoded rows side by side. -/
def avRow (r : Fin 500000) : RowOps.Row 256 := Fin.append (audRow a0 a2 a3 r) (visRow a1 a4 a5 r)
/-- The first affinity product. -/
def atRow (r : Fin 500000) : RowOps.Row 128 := fun j => RowOps.dot (avRow a0 a1 a2 a3 a4 a5 r) (RowOps.mat a6 j)
/-- The second affinity product. -/
def vtRow (r : Fin 500000) : RowOps.Row 128 := fun j => RowOps.dot (avRow a0 a1 a2 a3 a4 a5 r) (RowOps.mat a7 j)
/-- The first gate, `tanh (aud * a_t / 16)` entrywise. -/
def aattRow (r : Fin 500000) : RowOps.Row 128 :=
  fun j => Ideal.tanh (Ideal.div (audRow a0 a2 a3 r j * atRow a0 a1 a2 a3 a4 a5 a6 r j) RowOps.c16)
/-- The second gate, `tanh (vis * v_t / 16)` entrywise. -/
def vattRow (r : Fin 500000) : RowOps.Row 128 :=
  fun j => Ideal.tanh (Ideal.div (visRow a1 a4 a5 r j * vtRow a0 a1 a2 a3 a4 a5 a7 r j) RowOps.c16)
/-- The first rectified mixing layer. -/
def haRow (r : Fin 500000) : RowOps.Row 32 :=
  fun i => max (RowOps.dot (aattRow a0 a1 a2 a3 a4 a5 a6 r) (RowOps.mat a10 i) + RowOps.dot (audRow a0 a2 a3 r) (RowOps.mat a8 i)) 0
/-- The second rectified mixing layer. -/
def hvRow (r : Fin 500000) : RowOps.Row 32 :=
  fun i => max (RowOps.dot (vattRow a0 a1 a2 a3 a4 a5 a7 r) (RowOps.mat a11 i) + RowOps.dot (visRow a1 a4 a5 r) (RowOps.mat a9 i)) 0
/-- The first attention head. -/
def attaRow (r : Fin 500000) : RowOps.Row 8 :=
  fun k => RowOps.dot (haRow a0 a1 a2 a3 a4 a5 a6 a8 a10 r) (RowOps.mat a12 k) + RowOps.dot (audRow a0 a2 a3 r) (RowOps.mat a14 k) + RowOps.vec a15 k
/-- The second attention head. -/
def attvRow (r : Fin 500000) : RowOps.Row 8 :=
  fun k => RowOps.dot (hvRow a0 a1 a2 a3 a4 a5 a7 a9 a11 r) (RowOps.mat a13 k) + RowOps.dot (visRow a1 a4 a5 r) (RowOps.mat a16 k) + RowOps.vec a17 k
/-- The two heads side by side. -/
def avfRow (r : Fin 500000) : RowOps.Row 16 := Fin.append (attaRow a0 a1 a2 a3 a4 a5 a6 a8 a10 a12 a14 a15 r) (attvRow a0 a1 a2 a3 a4 a5 a7 a9 a11 a13 a16 a17 r)
/-- The regressor's hidden layer. -/
def hidRow (r : Fin 500000) : RowOps.Row 128 :=
  fun l => RowOps.dot (avfRow a0 a1 a2 a3 a4 a5 a6 a7 a8 a9 a10 a11 a12 a13 a14 a15 a16 a17 r) (RowOps.mat a18 l) + RowOps.vec a19 l

/-! ## Normalisation -/

/-- The sum of squares along row `r`: the zero initial value drops out. -/
theorem v1_row (r : Fin 500000) :
    val_main_v1 (F := Ideal) a0 (ix1 r) = ∑ i : Fin 88, RowOps.mat a0 r i * RowOps.mat a0 r i := by
  rw [val_main_v1_apply, val_main_cst_apply, Ideal.ofBits_def, Ideal.ofBits_zero_f32, zero_add]
  refine Finset.sum_congr rfl fun k _ => ?_
  rw [val_main_v0_apply, show idx_main_v1 (ix1 r) k = ix2 r k from by idx_eq]
  rfl

/-- The clamped norm of row `r`. -/
theorem v5_row (r : Fin 500000) (z : Fin 1) :
    val_main_v5 (F := Ideal) a0 (ix2 r z)
      = max (Ideal.sqrt (∑ i : Fin 88, RowOps.mat a0 r i * RowOps.mat a0 r i)) RowOps.eps := by
  rw [val_main_v5_apply, val_main_v3_apply, val_main_v2_apply, val_main_v4_apply, val_main_cst_0_apply,
      show idx_main_v2 (ix2 r z) = ix1 r from by idx_eq1, v1_row]
  rfl

/-- Row `r` divided by its clamped norm. -/
theorem v7_row (r : Fin 500000) (k : Fin 88) :
    val_main_v7 (F := Ideal) a0 (ix2 r k) = RowOps.unit (RowOps.mat a0 r) k := by
  rw [val_main_v7_apply, val_main_v6_apply,
      show idx_main_v6 (ix2 r k) = ix2 r (0 : Fin 1) from by idx_eq, v5_row]
  rfl

/-- The sum of squares along row `r`: the zero initial value drops out. -/
theorem v9_row (r : Fin 500000) :
    val_main_v9 (F := Ideal) a1 (ix1 r) = ∑ i : Fin 168, RowOps.mat a1 r i * RowOps.mat a1 r i := by
  rw [val_main_v9_apply, val_main_cst_1_apply, Ideal.ofBits_def, Ideal.ofBits_zero_f32, zero_add]
  refine Finset.sum_congr rfl fun k _ => ?_
  rw [val_main_v8_apply, show idx_main_v9 (ix1 r) k = ix2 r k from by idx_eq]
  rfl

/-- The clamped norm of row `r`. -/
theorem v13_row (r : Fin 500000) (z : Fin 1) :
    val_main_v13 (F := Ideal) a1 (ix2 r z)
      = max (Ideal.sqrt (∑ i : Fin 168, RowOps.mat a1 r i * RowOps.mat a1 r i)) RowOps.eps := by
  rw [val_main_v13_apply, val_main_v11_apply, val_main_v10_apply, val_main_v12_apply, val_main_cst_2_apply,
      show idx_main_v10 (ix2 r z) = ix1 r from by idx_eq1, v9_row]
  rfl

/-- Row `r` divided by its clamped norm. -/
theorem v15_row (r : Fin 500000) (k : Fin 168) :
    val_main_v15 (F := Ideal) a1 (ix2 r k) = RowOps.unit (RowOps.mat a1 r) k := by
  rw [val_main_v15_apply, val_main_v14_apply,
      show idx_main_v14 (ix2 r k) = ix2 r (0 : Fin 1) from by idx_eq, v13_row]
  rfl

/-! ## The two encoders -/

theorem v17_row (r : Fin 500000) (j : Fin 128) :
    val_main_v17 (F := Ideal) a0 a2 (ix2 r j) = RowOps.dot (RowOps.unit (RowOps.mat a0 r)) (RowOps.mat a2 j) := by
  rw [val_main_v17_apply]
  unfold RowOps.dot
  refine Finset.sum_congr rfl fun k _ => ?_
  rw [show lidx_main_v17 (ix2 r j) k = ix2 r k from by idx_eq,
      show ridx_main_v17 (ix2 r j) k = ix2 k j from by idx_eq,
      v7_row, val_main_v16_apply, show idx_main_v16 (ix2 k j) = ix2 j k from by idx_eq]
  rfl

theorem v19_row (r : Fin 500000) (j : Fin 128) :
    val_main_v19 (F := Ideal) a3 (ix2 r j) = RowOps.vec a3 j := by
  rw [val_main_v19_apply, val_main_v18_apply,
      show idx_main_v18 (idx_main_v19 (ix2 r j)) = ix1 j from by idx_eq1]
  rfl

theorem v20_row (r : Fin 500000) (j : Fin 128) :
    val_main_v20 (F := Ideal) a0 a2 a3 (ix2 r j) = audRow a0 a2 a3 r j := by
  rw [val_main_v20_apply, v17_row, v19_row]
  rfl

theorem v22_row (r : Fin 500000) (j : Fin 128) :
    val_main_v22 (F := Ideal) a1 a4 (ix2 r j) = RowOps.dot (RowOps.unit (RowOps.mat a1 r)) (RowOps.mat a4 j) := by
  rw [val_main_v22_apply]
  unfold RowOps.dot
  refine Finset.sum_congr rfl fun k _ => ?_
  rw [show lidx_main_v22 (ix2 r j) k = ix2 r k from by idx_eq,
      show ridx_main_v22 (ix2 r j) k = ix2 k j from by idx_eq,
      v15_row, val_main_v21_apply, show idx_main_v21 (ix2 k j) = ix2 j k from by idx_eq]
  rfl

theorem v24_row (r : Fin 500000) (j : Fin 128) :
    val_main_v24 (F := Ideal) a5 (ix2 r j) = RowOps.vec a5 j := by
  rw [val_main_v24_apply, val_main_v23_apply,
      show idx_main_v23 (idx_main_v24 (ix2 r j)) = ix1 j from by idx_eq1]
  rfl

theorem v25_row (r : Fin 500000) (j : Fin 128) :
    val_main_v25 (F := Ideal) a1 a4 a5 (ix2 r j) = visRow a1 a4 a5 r j := by
  rw [val_main_v25_apply, v22_row, v24_row]
  rfl

/-! ## The two encoded rows joined -/

/-- The joined stage reads the first encoder's row on columns below 128 and the second's on the others. -/
theorem v26_row (r : Fin 500000) (c : Fin 256) :
    val_main_v26 (F := Ideal) a0 a1 a2 a3 a4 a5 (ix2 r c) = avRow a0 a1 a2 a3 a4 a5 r c := by
  unfold val_main_v26 avRow
  refine Fin.addCases (m := 128) (n := 128) (fun i => ?_) (fun i => ?_) c
  · rw [Fin.append_left]
    exact (concatenate_pair_apply_left (t := S500000x256) (s₁ := S500000x128) (s₂ := S500000x128) (1 : Fin 2) _ _ concatenates_S500000x128_S500000x128_S500000x256_d1
      (ix2 r (Fin.castAdd 128 i) : S500000x256.Idx) rfl (ix2 r i : S500000x128.Idx)
      (fun b => by match b with | ⟨0, _⟩ => rfl | ⟨1, _⟩ => rfl)).trans (v20_row a0 a2 a3 r i)
  · rw [Fin.append_right]
    exact (concatenate_pair_apply_right (t := S500000x256) (s₁ := S500000x128) (s₂ := S500000x128) (1 : Fin 2) _ _ concatenates_S500000x128_S500000x128_S500000x256_d1
      (ix2 r (Fin.natAdd 128 i) : S500000x256.Idx) rfl rfl (ix2 r i : S500000x128.Idx)
      (fun b hb => by match b, hb with | ⟨0, _⟩, _ => rfl | ⟨1, _⟩, hb => exact absurd rfl hb)
      (by show i.val + 128 = 128 + i.val; omega)).trans (v25_row a1 a4 a5 r i)

/-! ## The affinity products and the gates -/

theorem v28_row (r : Fin 500000) (j : Fin 128) :
    val_main_v28 (F := Ideal) a0 a1 a2 a3 a4 a5 a6 (ix2 r j) = RowOps.dot (avRow a0 a1 a2 a3 a4 a5 r) (RowOps.mat a6 j) := by
  rw [val_main_v28_apply]
  unfold RowOps.dot
  refine Finset.sum_congr rfl fun k _ => ?_
  rw [show lidx_main_v28 (ix2 r j) k = ix2 r k from by idx_eq,
      show ridx_main_v28 (ix2 r j) k = ix2 k j from by idx_eq,
      v26_row, val_main_v27_apply, show idx_main_v27 (ix2 k j) = ix2 j k from by idx_eq]
  rfl

theorem v30_row (r : Fin 500000) (j : Fin 128) :
    val_main_v30 (F := Ideal) a0 a1 a2 a3 a4 a5 a7 (ix2 r j) = RowOps.dot (avRow a0 a1 a2 a3 a4 a5 r) (RowOps.mat a7 j) := by
  rw [val_main_v30_apply]
  unfold RowOps.dot
  refine Finset.sum_congr rfl fun k _ => ?_
  rw [show lidx_main_v30 (ix2 r j) k = ix2 r k from by idx_eq,
      show ridx_main_v30 (ix2 r j) k = ix2 k j from by idx_eq,
      v26_row, val_main_v29_apply, show idx_main_v29 (ix2 k j) = ix2 j k from by idx_eq]
  rfl

theorem v34_row (r : Fin 500000) (j : Fin 128) :
    val_main_v34 (F := Ideal) a0 a1 a2 a3 a4 a5 a6 (ix2 r j) = aattRow a0 a1 a2 a3 a4 a5 a6 r j := by
  rw [val_main_v34_apply, val_main_v33_apply, val_main_v31_apply, val_main_v32_apply, val_main_cst_3_apply,
      v20_row, v28_row]
  rfl

theorem v38_row (r : Fin 500000) (j : Fin 128) :
    val_main_v38 (F := Ideal) a0 a1 a2 a3 a4 a5 a7 (ix2 r j) = vattRow a0 a1 a2 a3 a4 a5 a7 r j := by
  rw [val_main_v38_apply, val_main_v37_apply, val_main_v35_apply, val_main_v36_apply, val_main_cst_4_apply,
      v25_row, v30_row]
  rfl

/-! ## The rectified mixing layers -/

theorem v40_row (r : Fin 500000) (j : Fin 32) :
    val_main_v40 (F := Ideal) a0 a1 a2 a3 a4 a5 a6 a10 (ix2 r j) = RowOps.dot (aattRow a0 a1 a2 a3 a4 a5 a6 r) (RowOps.mat a10 j) := by
  rw [val_main_v40_apply]
  unfold RowOps.dot
  refine Finset.sum_congr rfl fun k _ => ?_
  rw [show lidx_main_v40 (ix2 r j) k = ix2 r k from by idx_eq,
      show ridx_main_v40 (ix2 r j) k = ix2 k j from by idx_eq,
      v34_row, val_main_v39_apply, show idx_main_v39 (ix2 k j) = ix2 j k from by idx_eq]
  rfl

theorem v42_row (r : Fin 500000) (j : Fin 32) :
    val_main_v42 (F := Ideal) a0 a2 a3 a8 (ix2 r j) = RowOps.dot (audRow a0 a2 a3 r) (RowOps.mat a8 j) := by
  rw [val_main_v42_apply]
  unfold RowOps.dot
  refine Finset.sum_congr rfl fun k _ => ?_
  rw [show lidx_main_v42 (ix2 r j) k = ix2 r k from by idx_eq,
      show ridx_main_v42 (ix2 r j) k = ix2 k j from by idx_eq,
      v20_row, val_main_v41_apply, show idx_main_v41 (ix2 k j) = ix2 j k from by idx_eq]
  rfl

theorem v44_row (r : Fin 500000) (i : Fin 32) :
    val_main_v44 (F := Ideal) a0 a1 a2 a3 a4 a5 a6 a8 a10 (ix2 r i) = haRow a0 a1 a2 a3 a4 a5 a6 a8 a10 r i := by
  rw [val_main_v44_apply, val_main_v43_apply, val_main_call0_v0_apply, val_main_call0_cst_apply,
      Ideal.ofBits_def, Ideal.ofBits_zero_f32, v40_row, v42_row]
  rfl

theorem v46_row (r : Fin 500000) (j : Fin 32) :
    val_main_v46 (F := Ideal) a0 a1 a2 a3 a4 a5 a7 a11 (ix2 r j) = RowOps.dot (vattRow a0 a1 a2 a3 a4 a5 a7 r) (RowOps.mat a11 j) := by
  rw [val_main_v46_apply]
  unfold RowOps.dot
  refine Finset.sum_congr rfl fun k _ => ?_
  rw [show lidx_main_v46 (ix2 r j) k = ix2 r k from by idx_eq,
      show ridx_main_v46 (ix2 r j) k = ix2 k j from by idx_eq,
      v38_row, val_main_v45_apply, show idx_main_v45 (ix2 k j) = ix2 j k from by idx_eq]
  rfl

theorem v48_row (r : Fin 500000) (j : Fin 32) :
    val_main_v48 (F := Ideal) a1 a4 a5 a9 (ix2 r j) = RowOps.dot (visRow a1 a4 a5 r) (RowOps.mat a9 j) := by
  rw [val_main_v48_apply]
  unfold RowOps.dot
  refine Finset.sum_congr rfl fun k _ => ?_
  rw [show lidx_main_v48 (ix2 r j) k = ix2 r k from by idx_eq,
      show ridx_main_v48 (ix2 r j) k = ix2 k j from by idx_eq,
      v25_row, val_main_v47_apply, show idx_main_v47 (ix2 k j) = ix2 j k from by idx_eq]
  rfl

theorem v50_row (r : Fin 500000) (i : Fin 32) :
    val_main_v50 (F := Ideal) a0 a1 a2 a3 a4 a5 a7 a9 a11 (ix2 r i) = hvRow a0 a1 a2 a3 a4 a5 a7 a9 a11 r i := by
  rw [val_main_v50_apply, val_main_v49_apply, val_main_call1_v0_apply, val_main_call1_cst_apply,
      Ideal.ofBits_def, Ideal.ofBits_zero_f32, v46_row, v48_row]
  rfl

/-! ## The attention heads -/

theorem v52_row (r : Fin 500000) (j : Fin 8) :
    val_main_v52 (F := Ideal) a0 a1 a2 a3 a4 a5 a6 a8 a10 a12 (ix2 r j) = RowOps.dot (haRow a0 a1 a2 a3 a4 a5 a6 a8 a10 r) (RowOps.mat a12 j) := by
  rw [val_main_v52_apply]
  unfold RowOps.dot
  refine Finset.sum_congr rfl fun k _ => ?_
  rw [show lidx_main_v52 (ix2 r j) k = ix2 r k from by idx_eq,
      show ridx_main_v52 (ix2 r j) k = ix2 k j from by idx_eq,
      v44_row, val_main_v51_apply, show idx_main_v51 (ix2 k j) = ix2 j k from by idx_eq]
  rfl

theorem v54_row (r : Fin 500000) (j : Fin 8) :
    val_main_v54 (F := Ideal) a0 a2 a3 a14 (ix2 r j) = RowOps.dot (audRow a0 a2 a3 r) (RowOps.mat a14 j) := by
  rw [val_main_v54_apply]
  unfold RowOps.dot
  refine Finset.sum_congr rfl fun k _ => ?_
  rw [show lidx_main_v54 (ix2 r j) k = ix2 r k from by idx_eq,
      show ridx_main_v54 (ix2 r j) k = ix2 k j from by idx_eq,
      v20_row, val_main_v53_apply, show idx_main_v53 (ix2 k j) = ix2 j k from by idx_eq]
  rfl

theorem v57_row (r : Fin 500000) (j : Fin 8) :
    val_main_v57 (F := Ideal) a15 (ix2 r j) = RowOps.vec a15 j := by
  rw [val_main_v57_apply, val_main_v56_apply,
      show idx_main_v56 (idx_main_v57 (ix2 r j)) = ix1 j from by idx_eq1]
  rfl

theorem v58_row (r : Fin 500000) (k : Fin 8) :
    val_main_v58 (F := Ideal) a0 a1 a2 a3 a4 a5 a6 a8 a10 a12 a14 a15 (ix2 r k) = attaRow a0 a1 a2 a3 a4 a5 a6 a8 a10 a12 a14 a15 r k := by
  rw [val_main_v58_apply, val_main_v55_apply, v52_row, v54_row, v57_row]
  rfl

theorem v60_row (r : Fin 500000) (j : Fin 8) :
    val_main_v60 (F := Ideal) a0 a1 a2 a3 a4 a5 a7 a9 a11 a13 (ix2 r j) = RowOps.dot (hvRow a0 a1 a2 a3 a4 a5 a7 a9 a11 r) (RowOps.mat a13 j) := by
  rw [val_main_v60_apply]
  unfold RowOps.dot
  refine Finset.sum_congr rfl fun k _ => ?_
  rw [show lidx_main_v60 (ix2 r j) k = ix2 r k from by idx_eq,
      show ridx_main_v60 (ix2 r j) k = ix2 k j from by idx_eq,
      v50_row, val_main_v59_apply, show idx_main_v59 (ix2 k j) = ix2 j k from by idx_eq]
  rfl

theorem v62_row (r : Fin 500000) (j : Fin 8) :
    val_main_v62 (F := Ideal) a1 a4 a5 a16 (ix2 r j) = RowOps.dot (visRow a1 a4 a5 r) (RowOps.mat a16 j) := by
  rw [val_main_v62_apply]
  unfold RowOps.dot
  refine Finset.sum_congr rfl fun k _ => ?_
  rw [show lidx_main_v62 (ix2 r j) k = ix2 r k from by idx_eq,
      show ridx_main_v62 (ix2 r j) k = ix2 k j from by idx_eq,
      v25_row, val_main_v61_apply, show idx_main_v61 (ix2 k j) = ix2 j k from by idx_eq]
  rfl

theorem v65_row (r : Fin 500000) (j : Fin 8) :
    val_main_v65 (F := Ideal) a17 (ix2 r j) = RowOps.vec a17 j := by
  rw [val_main_v65_apply, val_main_v64_apply,
      show idx_main_v64 (idx_main_v65 (ix2 r j)) = ix1 j from by idx_eq1]
  rfl

theorem v66_row (r : Fin 500000) (k : Fin 8) :
    val_main_v66 (F := Ideal) a0 a1 a2 a3 a4 a5 a7 a9 a11 a13 a16 a17 (ix2 r k) = attvRow a0 a1 a2 a3 a4 a5 a7 a9 a11 a13 a16 a17 r k := by
  rw [val_main_v66_apply, val_main_v63_apply, v60_row, v62_row, v65_row]
  rfl

/-! ## The two heads joined, and the regressor -/

/-- The joined stage reads the first head on columns below 8 and the second on the others. -/
theorem v67_row (r : Fin 500000) (c : Fin 16) :
    val_main_v67 (F := Ideal) a0 a1 a2 a3 a4 a5 a6 a7 a8 a9 a10 a11 a12 a13 a14 a15 a16 a17 (ix2 r c) = avfRow a0 a1 a2 a3 a4 a5 a6 a7 a8 a9 a10 a11 a12 a13 a14 a15 a16 a17 r c := by
  unfold val_main_v67 avfRow
  refine Fin.addCases (m := 8) (n := 8) (fun i => ?_) (fun i => ?_) c
  · rw [Fin.append_left]
    exact (concatenate_pair_apply_left (t := S500000x16) (s₁ := S500000x8) (s₂ := S500000x8) (1 : Fin 2) _ _ concatenates_S500000x8_S500000x8_S500000x16_d1
      (ix2 r (Fin.castAdd 8 i) : S500000x16.Idx) rfl (ix2 r i : S500000x8.Idx)
      (fun b => by match b with | ⟨0, _⟩ => rfl | ⟨1, _⟩ => rfl)).trans (v58_row a0 a1 a2 a3 a4 a5 a6 a8 a10 a12 a14 a15 r i)
  · rw [Fin.append_right]
    exact (concatenate_pair_apply_right (t := S500000x16) (s₁ := S500000x8) (s₂ := S500000x8) (1 : Fin 2) _ _ concatenates_S500000x8_S500000x8_S500000x16_d1
      (ix2 r (Fin.natAdd 8 i) : S500000x16.Idx) rfl rfl (ix2 r i : S500000x8.Idx)
      (fun b hb => by match b, hb with | ⟨0, _⟩, _ => rfl | ⟨1, _⟩, hb => exact absurd rfl hb)
      (by show i.val + 8 = 8 + i.val; omega)).trans (v66_row a0 a1 a2 a3 a4 a5 a7 a9 a11 a13 a16 a17 r i)

theorem v69_row (r : Fin 500000) (j : Fin 128) :
    val_main_v69 (F := Ideal) a0 a1 a2 a3 a4 a5 a6 a7 a8 a9 a10 a11 a12 a13 a14 a15 a16 a17 a18 (ix2 r j) = RowOps.dot (avfRow a0 a1 a2 a3 a4 a5 a6 a7 a8 a9 a10 a11 a12 a13 a14 a15 a16 a17 r) (RowOps.mat a18 j) := by
  rw [val_main_v69_apply]
  unfold RowOps.dot
  refine Finset.sum_congr rfl fun k _ => ?_
  rw [show lidx_main_v69 (ix2 r j) k = ix2 r k from by idx_eq,
      show ridx_main_v69 (ix2 r j) k = ix2 k j from by idx_eq,
      v67_row, val_main_v68_apply, show idx_main_v68 (ix2 k j) = ix2 j k from by idx_eq]
  rfl

theorem v71_row (r : Fin 500000) (j : Fin 128) :
    val_main_v71 (F := Ideal) a19 (ix2 r j) = RowOps.vec a19 j := by
  rw [val_main_v71_apply, val_main_v70_apply,
      show idx_main_v70 (idx_main_v71 (ix2 r j)) = ix1 j from by idx_eq1]
  rfl

theorem v72_row (r : Fin 500000) (l : Fin 128) :
    val_main_v72 (F := Ideal) a0 a1 a2 a3 a4 a5 a6 a7 a8 a9 a10 a11 a12 a13 a14 a15 a16 a17 a18 a19 (ix2 r l) = hidRow a0 a1 a2 a3 a4 a5 a6 a7 a8 a9 a10 a11 a12 a13 a14 a15 a16 a17 a18 a19 r l := by
  rw [val_main_v72_apply, v69_row, v71_row]
  rfl

theorem v74_row (r : Fin 500000) (j : Fin 1) :
    val_main_v74 (F := Ideal) a0 a1 a2 a3 a4 a5 a6 a7 a8 a9 a10 a11 a12 a13 a14 a15 a16 a17 a18 a19 a20 (ix2 r j) = RowOps.dot (hidRow a0 a1 a2 a3 a4 a5 a6 a7 a8 a9 a10 a11 a12 a13 a14 a15 a16 a17 a18 a19 r) (RowOps.mat a20 j) := by
  rw [val_main_v74_apply]
  unfold RowOps.dot
  refine Finset.sum_congr rfl fun k _ => ?_
  rw [show lidx_main_v74 (ix2 r j) k = ix2 r k from by idx_eq,
      show ridx_main_v74 (ix2 r j) k = ix2 k j from by idx_eq,
      v72_row, val_main_v73_apply, show idx_main_v73 (ix2 k j) = ix2 j k from by idx_eq]
  rfl

theorem v76_row (r : Fin 500000) (z : Fin 1) :
    val_main_v76 (F := Ideal) a21 (ix2 r z) = RowOps.vec a21 0 := by
  rw [val_main_v76_apply, val_main_v75_apply,
      show idx_main_v75 (idx_main_v76 (ix2 r z)) = ix1 (0 : Fin 1) from by idx_eq1]
  rfl

/-! ## The result -/

/-- Row `r` of the program's result (its one column) is the layer-by-layer network of the row specification on row
    `r` of the two feature arrays: the last product is the inner product of the hidden row with the one row of the
    last weight table, plus the last bias, and every earlier row is the corresponding `let` of `RowOps.refRow`. -/
theorem ref_apply (r : Fin 500000) :
    val_main_v77 (F := Ideal) a0 a1 a2 a3 a4 a5 a6 a7 a8 a9 a10 a11 a12 a13 a14 a15 a16 a17 a18 a19 a20 a21 (ix2 r (0 : Fin 1))
      = RowOps.refRow (RowOps.paramsOf a2 a3 a4 a5 a6 a7 a8 a9 a10 a11 a12 a13 a14 a15 a16 a17 a18 a19 a20 a21) (RowOps.mat a0 r) (RowOps.mat a1 r) := by
  rw [val_main_v77_apply, v74_row, v76_row]
  rfl

end Cert.ReferenceIdeal.RefValue

end
-- ==== Proof.PackedEq.lean ====
/-
  The packed network equals the layer-by-layer one: `kerRow (pack P) = refRow P`, for every extended-real
  input and every weight, finite or not.

  The mathematics.  Over the extended reals addition is a commutative monoid and multiplication a commutative
  monoid with `x * 0 = 0`, so finite sums split over a joined index set and a zero block of weights contributes
  nothing:

  * a sum over the index set `Fin (a + b)` is the sum over the first `a` indices plus the sum over the last `b`;
    hence the inner product of a joined row `x ++ y` with a row of weights is the inner product of `x` with the
    first `a` weights plus that of `y` with the last `b` (`dot_append`);
  * a column of a block-diagonal table `[[A, 0], [0, B]]` is a column of `A` above zeros, or zeros above a column of
    `B`; the inner product with zeros is `0` (`dot_zero`).  So each wide product of the packed network is, half by
    half of its result, one of the narrow products of the layer-by-layer network, and each packed layer is the two
    narrow layers joined side by side.

  The only step that is not a regrouping of sums is the gate.  The packed affine weights carry the factor `1/16`,
  the layer-by-layer gate divides by `16`:
      `x * ∑ k, v k * (w k * (1/16))  =  (x * ∑ k, v k * w k) / 16`.
  Multiplication by a FINITE NONNEGATIVE constant distributes over every extended-real sum (also over `⊤ + ⊥`:
  both sides are `⊥`), so the factor comes out of the sum (`sum_mul_const`); division by the nonzero real `16` is
  multiplication by its reciprocal (`Ideal.div_coe`); the rest is associativity of the product.  The two literals
  are read once as the reals `16` and `1/16` (`c16_eq`, `c16inv_eq`).

  No finiteness hypothesis is used anywhere.
-/
import proofs.«153533_j58291296141385_2_alg».proof.Proof.RowSpec
import Mathlib.Data.EReal.Operations
import Mathlib.Algebra.BigOperators.Fin

noncomputable section

namespace RowOps

open Idealize.ShloMosaic

namespace PackedEq

/-- The single-precision word `0x41800000` denotes the real `16`. -/
theorem c16_eq : c16 = ((16 : ℝ) : EReal) := by
  unfold c16; simp [Ideal.ofBits, Ideal.ieee, -EReal.coe_mul]; norm_num

/-- The single-precision word `0x3D800000` denotes the real `1/16`. -/
theorem c16inv_eq : c16inv = ((1 / 16 : ℝ) : EReal) := by
  unfold c16inv; simp [Ideal.ofBits, Ideal.ieee, -EReal.coe_mul]; norm_num

theorem c16inv_nonneg : 0 ≤ c16inv := by
  rw [c16inv_eq]; exact_mod_cast (by norm_num : (0 : ℝ) ≤ 1 / 16)

theorem c16inv_ne_top : c16inv ≠ ⊤ := by
  rw [c16inv_eq]; exact EReal.coe_ne_top _

/-- A finite nonnegative factor comes out of any finite extended-real sum: multiplication by such a factor
    distributes over `+` at the infinities too. -/
theorem sum_mul_const {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- Scaling every weight by a finite nonnegative constant scales the inner product by it. -/
theorem dot_mul_const {n : ℕ} (x w : Row n) {c : EReal} (h0 : 0 ≤ c) (ht : c ≠ ⊤) :
    dot x (fun k => w k * c) = dot x w * c := by
  unfold dot
  rw [← sum_mul_const _ _ h0 ht]
  exact Finset.sum_congr rfl (fun k _ => (mul_assoc _ _ _).symm)

/-- The gate: the factor `1/16` folded into the weights is the division of the product by `16`. -/
theorem gate_eq (a : EReal) {n : ℕ} (x w : Row n) :
    a * dot x (fun k => w k * c16inv) = Ideal.div (a * dot x w) c16 := by
  rw [dot_mul_const x w c16inv_nonneg c16inv_ne_top, c16_eq, Ideal.div_coe (by norm_num : (16 : ℝ) ≠ 0),
    ← c16inv_eq, mul_assoc]

/-- The inner product with a joined row is the sum of the inner products of its two parts. -/
theorem dot_append {a b : ℕ} (x : Row a) (y : Row b) (w : Row (a + b)) :
    dot (Fin.append x y) w
      = dot x (fun k => w (Fin.castAdd b k)) + dot y (fun k => w (Fin.natAdd a k)) := by
  unfold dot
  rw [Fin.sum_univ_add]
  simp only [Fin.append_left, Fin.append_right]

/-- The inner product with a row of zeros is zero (`x * 0 = 0` for every extended real). -/
theorem dot_zero {n : ℕ} (x : Row n) : dot x (fun _ => 0) = 0 := by
  simp [dot]

/-! ## Reading joined tables at an index of either part -/

@[simp] theorem vcat_castAdd {a b c : ℕ} (A : Mat a c) (B : Mat b c) (k : Fin a) :
    vcat A B (Fin.castAdd b k) = A k := Fin.append_left _ _ _
@[simp] theorem vcat_natAdd {a b c : ℕ} (A : Mat a c) (B : Mat b c) (k : Fin b) :
    vcat A B (Fin.natAdd a k) = B k := Fin.append_right _ _ _
@[simp] theorem hcat_castAdd {r a b : ℕ} (A : Mat r a) (B : Mat r b) (i : Fin r) (j : Fin a) :
    hcat A B i (Fin.castAdd b j) = A i j := Fin.append_left _ _ _
@[simp] theorem hcat_natAdd {r a b : ℕ} (A : Mat r a) (B : Mat r b) (i : Fin r) (j : Fin b) :
    hcat A B i (Fin.natAdd a j) = B i j := Fin.append_right _ _ _

/-- Joining three rows is associative, up to the identification of the two index sets. -/
theorem append_assoc_apply {α : Type} {m n p : ℕ} (x : Fin m → α) (c : Fin n → α) (d : Fin p → α)
    (k : Fin (m + n + p)) :
    Fin.append (Fin.append x c) d k = Fin.append x (Fin.append c d) (Fin.cast (Nat.add_assoc m n p) k) :=
  congrFun (Fin.append_assoc x c d) k

/-- Four rows of 128 joined left to right are the first two joined, then the last two joined. -/
theorem append4 {α : Type} (a b c d : Fin 128 → α) :
    (Fin.append (Fin.append (Fin.append a b) c) d : Fin 512 → α)
      = (Fin.append (Fin.append a b) (Fin.append c d) : Fin 512 → α) :=
  funext fun k => append_assoc_apply (Fin.append a b) c d k

/-! ## The two row functions, layer by layer -/

/-- The packed network's first wide product. -/
def kAv (Q : Packed) (u : Row 256) : Row 256 := fun j => dot u (fun k => Q.W1 k j) + Q.b1 j
def kAatt (Q : Packed) (av : Row 256) (aud : Row 128) : Row 128 :=
  fun j => Ideal.tanh (aud j * dot av (fun k => Q.W2 k (Fin.castAdd 128 j)))
def kVatt (Q : Packed) (av : Row 256) (vis : Row 128) : Row 128 :=
  fun j => Ideal.tanh (vis j * dot av (fun k => Q.W2 k (Fin.natAdd 128 j)))
def kH (Q : Packed) (aatt aud vatt vis : Row 128) : Row 64 :=
  fun i => max (dot (Fin.append (Fin.append (Fin.append aatt aud) vatt) vis : Row 512) (fun k => Q.W3 k i)) 0
def kAvf (Q : Packed) (h : Row 64) (aud vis : Row 128) : Row 16 :=
  fun k => dot (Fin.append (Fin.append h aud) vis : Row 320) (fun j => Q.W4 j k) + Q.b4 k
def kOut (Q : Packed) (avf : Row 16) : EReal :=
  (∑ l, (dot avf (fun k => Q.r1T k l) + Q.r1b l) * Q.r2 l) + Q.r2b
/-- The packed network after its first product, as a function of that product's result and its two halves. -/
def kTail (Q : Packed) (av : Row 256) (aud vis : Row 128) : EReal :=
  kOut Q (kAvf Q (kH Q (kAatt Q av aud) aud (kVatt Q av vis) vis) aud vis)

/-- The packed network is its layers composed (by definition). -/
theorem kerRow_eq (Q : Packed) (x1 : Row 88) (x2 : Row 168) :
    kerRow Q x1 x2 =
      kTail Q (kAv Q (Fin.append (unit x1) (unit x2)))
        (fun j => kAv Q (Fin.append (unit x1) (unit x2)) (Fin.castAdd 128 j))
        (fun j => kAv Q (Fin.append (unit x1) (unit x2)) (Fin.natAdd 128 j)) := rfl

def rAatt (P : Params) (aud vis : Row 128) : Row 128 :=
  fun j => Ideal.tanh (Ideal.div (aud j * dot (Fin.append aud vis : Row 256) (P.aff_a j)) c16)
def rVatt (P : Params) (aud vis : Row 128) : Row 128 :=
  fun j => Ideal.tanh (Ideal.div (vis j * dot (Fin.append aud vis : Row 256) (P.aff_v j)) c16)
def rHa (P : Params) (aatt aud : Row 128) : Row 32 :=
  fun i => max (dot aatt (P.w_ca i) + dot aud (P.w_a i)) 0
def rHv (P : Params) (vatt vis : Row 128) : Row 32 :=
  fun i => max (dot vatt (P.w_cv i) + dot vis (P.w_v i)) 0
def rAttA (P : Params) (ha : Row 32) (aud : Row 128) : Row 8 :=
  fun k => dot ha (P.w_ha k) + dot aud (P.e3_w k) + P.e3_b k
def rAttV (P : Params) (hv : Row 32) (vis : Row 128) : Row 8 :=
  fun k => dot hv (P.w_hv k) + dot vis (P.e4_w k) + P.e4_b k
def rOut (P : Params) (avf : Row 16) : EReal :=
  dot (fun l => dot avf (P.r1_w l) + P.r1_b l) (P.r2_w 0) + P.r2_b 0
/-- The layer-by-layer network after its two encoders. -/
def rTail (P : Params) (aud vis : Row 128) : EReal :=
  rOut P (Fin.append (rAttA P (rHa P (rAatt P aud vis) aud) aud) (rAttV P (rHv P (rVatt P aud vis) vis) vis))

/-- The layer-by-layer network is its layers composed (by definition). -/
theorem refRow_eq (P : Params) (x1 : Row 88) (x2 : Row 168) :
    refRow P x1 x2 = rTail P (lin P.e1_w P.e1_b (unit x1)) (lin P.e2_w P.e2_b (unit x2)) := rfl

/-- First product: block-diagonal encoder weights give the two encoders' results side by side. -/
theorem kAv_pack (P : Params) (u1 : Row 88) (u2 : Row 168) :
    kAv (pack P) (Fin.append u1 u2) = Fin.append (lin P.e1_w P.e1_b u1) (lin P.e2_w P.e2_b u2) := by
  have h : ∀ j : Fin (128 + 128), kAv (pack P) (Fin.append u1 u2) j
      = Fin.append (lin P.e1_w P.e1_b u1) (lin P.e2_w P.e2_b u2) j := by
    intro j
    induction j using Fin.addCases with
    | left j =>
      simp only [kAv, pack, Fin.append_left, lin]
      rw [dot_append]
      simp only [vcat_castAdd, vcat_natAdd, hcat_castAdd, zeroMat, dot_zero, add_zero, tr]
    | right j =>
      simp only [kAv, pack, Fin.append_right, lin]
      rw [dot_append]
      simp only [vcat_castAdd, vcat_natAdd, hcat_natAdd, zeroMat, dot_zero, zero_add, tr]
  exact funext h

/-- The first half of the packed gate product is the audio gate. -/
theorem kAatt_pack (P : Params) (aud vis : Row 128) :
    kAatt (pack P) (Fin.append aud vis) aud = rAatt P aud vis := by
  funext j
  simp only [kAatt, rAatt, pack, hcat_castAdd, tr]
  rw [gate_eq]

/-- The second half of the packed gate product is the visual gate. -/
theorem kVatt_pack (P : Params) (aud vis : Row 128) :
    kVatt (pack P) (Fin.append aud vis) vis = rVatt P aud vis := by
  funext j
  simp only [kVatt, rVatt, pack, hcat_natAdd, tr]
  rw [gate_eq]

/-- Third product: the block-diagonal mixing weights give the two rectified mixing layers side by side. -/
theorem kH_pack (P : Params) (aatt aud vatt vis : Row 128) :
    kH (pack P) aatt aud vatt vis = Fin.append (rHa P aatt aud) (rHv P vatt vis) := by
  have h : ∀ i : Fin (32 + 32), kH (pack P) aatt aud vatt vis i
      = Fin.append (rHa P aatt aud) (rHv P vatt vis) i := by
    intro i
    induction i using Fin.addCases with
    | left i =>
      simp only [kH, pack, Fin.append_left, rHa]
      rw [append4, dot_append]
      simp only [vcat_castAdd, vcat_natAdd, hcat_castAdd, zeroMat, dot_zero, add_zero]
      rw [dot_append]
      simp only [vcat_castAdd, vcat_natAdd, tr]
    | right i =>
      simp only [kH, pack, Fin.append_right, rHv]
      rw [append4, dot_append]
      simp only [vcat_castAdd, vcat_natAdd, hcat_natAdd, zeroMat, dot_zero, zero_add]
      rw [dot_append]
      simp only [vcat_castAdd, vcat_natAdd, tr]
  exact funext h

/-- Fourth product: the stacked head weights give the two attention heads side by side. -/
theorem kAvf_pack (P : Params) (ha hv : Row 32) (aud vis : Row 128) :
    kAvf (pack P) (Fin.append ha hv) aud vis = Fin.append (rAttA P ha aud) (rAttV P hv vis) := by
  have h : ∀ k : Fin (8 + 8), kAvf (pack P) (Fin.append ha hv) aud vis k
      = Fin.append (rAttA P ha aud) (rAttV P hv vis) k := by
    intro k
    induction k using Fin.addCases with
    | left k =>
      simp only [kAvf, pack, Fin.append_left, rAttA]
      rw [dot_append, dot_append, dot_append]
      simp only [vcat_castAdd, vcat_natAdd, hcat_castAdd, zeroMat, dot_zero, add_zero, tr]
    | right k =>
      simp only [kAvf, pack, Fin.append_right, rAttV]
      rw [dot_append, dot_append, dot_append]
      simp only [vcat_castAdd, vcat_natAdd, hcat_natAdd, zeroMat, dot_zero, zero_add, add_zero, tr]
  exact funext h

/-- The regressor: a transposed table read at swapped indices, and a lane sum that is the inner product. -/
theorem kOut_pack (P : Params) (avf : Row 16) : kOut (pack P) avf = rOut P avf := rfl

end PackedEq

open PackedEq in
/-- The packed network over packed weights is the layer-by-layer network, for all extended-real inputs. -/
theorem kerRow_pack (P : Params) (x1 : Row 88) (x2 : Row 168) :
    kerRow (pack P) x1 x2 = refRow P x1 x2 := by
  rw [kerRow_eq, refRow_eq, kAv_pack]
  simp only [Fin.append_left, Fin.append_right]
  unfold kTail rTail
  rw [kAatt_pack, kVatt_pack, kH_pack, kAvf_pack, kOut_pack]

end RowOps

end
-- ==== Proof.Algebraic.lean ====
/-
  The two idealized programs compute one function.

  The kernel's run leaves in its result array, at row r, the packed row function of row r of the two feature
  arrays over the weight tables its host operations laid out; those tables are the block-diagonal packing of
  the twenty weight arrays; and the packed row function over that packing is the layer-by-layer row function,
  which is what the reference's run leaves at row r.  Every step is an identity of sums and products of
  extended reals — zero blocks contribute nothing, sums split along joined rows, and the one distributive
  step is across the positive constant 1/16 — so no finiteness of the inputs is used.
-/
import proofs.«153533_j58291296141385_2_alg».proof.Defs
import proofs.«153533_j58291296141385_2_alg».proof.Proof.Gen.ReferenceIdeal.Run
import proofs.«153533_j58291296141385_2_alg».proof.Proof.Gen.ReferenceIdeal.Read
import proofs.«153533_j58291296141385_2_alg».proof.Proof.KernelIdealRun
import proofs.«153533_j58291296141385_2_alg».proof.Proof.HostPack
import proofs.«153533_j58291296141385_2_alg».proof.Proof.RefRow
import proofs.«153533_j58291296141385_2_alg».proof.Proof.PackedEq

set_option maxRecDepth 16384

noncomputable section

namespace Cert.KernelIdeal.RunValue

open Cert.KernelIdeal Cert.KernelIdeal.Gen Cert.KernelIdeal.Frame Idealize.ShloMosaic Idealize.ShloMosaic.TcCoe Idealize.SL.Sem
open Idealize.ShloMosaic.ValueIdx

variable (m : (ℓ : Loc nD τ sig) → Buf (Elt Ideal) ℓ)

/-- The weight tables the launch finds are the packing of the twenty weight arrays. -/
theorem Q_pack (c : Dev nD) : Q m c = RowOps.pack (RowOps.paramsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))) := by
  unfold Q
  rw [Cert.KernelIdeal.HostPack.W1_eq m c, Cert.KernelIdeal.HostPack.b1_eq m c, Cert.KernelIdeal.HostPack.W2_eq m c,
    Cert.KernelIdeal.HostPack.W3_eq m c, Cert.KernelIdeal.HostPack.W4_eq m c, Cert.KernelIdeal.HostPack.b4_eq m c,
    Cert.KernelIdeal.HostPack.r1T_eq m c, Cert.KernelIdeal.HostPack.r1b_eq m c,
    show (V m c main_v47 : S1x1.Idx → EReal) (ix2 0 0) = (RowOps.pack (Cert.KernelIdeal.HostPack.params m c)).r2b
      from Cert.KernelIdeal.HostPack.r2b_eq m c,
    V_main_arg20 m c]
  rfl

end Cert.KernelIdeal.RunValue

namespace Cert.Proof

open Idealize.ShloMosaic Idealize.SL.Sem Idealize.ShloMosaic.ValueIdx

/-- From memories that agree on the arguments both idealized programs run to the end, leave their arguments as
    they were, and leave equal result arrays: at row `r` both hold the network's value on row `r` of the two
    feature arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.RunValue.G m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq]
  obtain ⟨h0, h1, h2, h3, h4, h5, h6, h7, h8, h9, h10, h11, h12, h13, h14, h15, h16, h17, h18, h19, h20, h21⟩ := hagree c
  rw [h0, h1, h2, h3, h4, h5, h6, h7, h8, h9, h10, h11, h12, h13, h14, h15, h16, h17, h18, h19, h20, h21]
  funext i
  obtain ⟨r, q, rfl⟩ : ∃ (r : Fin 500000) (q : Fin 1), i = ix2 r q := ⟨i 0, i 1, eq_ix2 i⟩
  obtain rfl : q = 0 := Subsingleton.elim _ _
  rw [Cert.ReferenceIdeal.RefValue.ref_apply]
  unfold Cert.KernelIdeal.RunValue.G
  beta_reduce
  rw [Cert.KernelIdeal.RunValue.Q_pack m c, Cert.KernelIdeal.Frame.V_main_arg0 m c, Cert.KernelIdeal.Frame.V_main_arg1 m c]
  exact (RowOps.kerRow_pack _ _ _).symm

end Cert.Proof

end
-- ==== Proof.lean ====
/-
  The certificate of a fused per-row gating network against its layer-by-layer reference.

  Five claims.  Three frames: each program runs to the end under every weakly fair schedule, faults nowhere, and
  leaves its twenty-two argument arrays as it found them — for the two kernel programs by the pipeline
  library's frame theorem over a body that reads twelve staged blocks whole and writes one (Proof/KernelFrame,
  Proof/KernelIdealFrame), for the reference by its run read back.  The idealization rewrote nothing, so that
  claim is trivial.  And the two idealized programs leave equal result arrays (Proof/Algebraic): row by row both
  compute the same function of the feature rows and the weights, the kernel over block-diagonal packings of the
  weight tables (Proof/RowSpec states both row functions, Proof/PackedEq proves them equal, Proof/KerRow,
  Proof/HostPack and Proof/KernelIdealRun identify the kernel's result with one and Proof/RefRow the
  reference's with the other).
-/
import proofs.«153533_j58291296141385_2_alg».proof.Defs
import proofs.«153533_j58291296141385_2_alg».proof.Proof.Gen.Kernel
import proofs.«153533_j58291296141385_2_alg».proof.Proof.Gen.Kernel.Skeleton
import proofs.«153533_j58291296141385_2_alg».proof.Proof.Gen.Kernel.Launch
import proofs.«153533_j58291296141385_2_alg».proof.Proof.Gen.Kernel.Points
import proofs.«153533_j58291296141385_2_alg».proof.Proof.Gen.KernelIdeal
import proofs.«153533_j58291296141385_2_alg».proof.Proof.Gen.KernelIdeal.Skeleton
import proofs.«153533_j58291296141385_2_alg».proof.Proof.Gen.KernelIdeal.Launch
import proofs.«153533_j58291296141385_2_alg».proof.Proof.Gen.KernelIdeal.Points
import proofs.«153533_j58291296141385_2_alg».proof.Proof.Gen.ReferenceIdeal
import proofs.«153533_j58291296141385_2_alg».proof.Proof.Gen.Pre_finite_inputs
import proofs.«153533_j58291296141385_2_alg».proof.Proof.Gen.ReferenceIdeal.Run
import proofs.«153533_j58291296141385_2_alg».proof.Proof.Gen.ReferenceIdeal.Read
import proofs.«153533_j58291296141385_2_alg».proof.Proof.KernelFrame
import proofs.«153533_j58291296141385_2_alg».proof.Proof.KernelIdealFrame
import proofs.«153533_j58291296141385_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Frame.frame m ρ,
  fun m ρ _ => Cert.KernelIdeal.Frame.frame m ρ,
  fun m ρ _ => (θ_run Cert.ReferenceIdeal.defs _ _).mono (fun _ h c => (h c).2) (Cert.ReferenceIdeal.Value.run (F := Ideal) m ρ),
  trivial,
  Cert.Proof.algebraic⟩

end Cert.Proof

end
